-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S1x64 : Shape := ⟨2, ![1, 64]⟩

abbrev nBuf : Space → Nat
  | .hbm => 55
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x128, .f32⟩
  | .hbm, ⟨38, _⟩ => ⟨S100000x128, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x64, .f32⟩
  | .hbm, ⟨54, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S64x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S4000x64, .f32⟩
  | .local _ .vmem, ⟨20, _⟩ => ⟨S4000x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v21) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call1_cst : Ref sig .tc := ⟨.hbm, 41, rfl⟩
abbrev main_call1_v0 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel program's run with its result named: every weakly fair execution of the three pallas_calls and
  the host operations around them terminates, and the result buffer ends holding what the last region's write-backs
  leave in it (the contents `W7` of the run's last boundary, read at the result's reference), the arguments unchanged.
-/
import proofs.«181870_j23922967838756_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's seven segments, its last thread state read against the final memory: the result's
    buffer is an unscoped one, so it ends at the last boundary's contents; each argument walks back to the launch. -/
theorem run_main : θ_run defs (onTc (τ := τ) (main (F := F))) ⟨m, fun _ => 0, ρ⟩ (fun r => ∀ c : Dev nD,
      r.2.mem ((c.tc : Thread nD τ).loc main_v36) = W7 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v36 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Val

end
-- ==== Proof.GcnSpec.lean ====
/-
  A two-layer graph convolution, stated index by index on the extended reals.

  Nodes `ι`, edges `ε`; edge `e` lands on node `n` when `hit e n`, and reads node `src e`.  A segment sum adds, for each
  node, the entries of the edges that land on it; the degree is that count clipped below at one.  One layer is
  `(segment-sum of the neighbours' rows / degree + own row) · W + b`.

  `outK` is the arrangement that multiplies by the reciprocal degree and, in the second layer, applies the weight matrix
  BEFORE the aggregation (`p = h · W₂`, then `segsum p / deg + p + b₂`); `outR` divides by the degree and applies the weight
  matrix after it (`(segsum h / deg + h) · W₂ + b₂`).  On finite inputs the two agree: a segment sum and a matrix product
  are both finite sums, which commute, and the division by a row's degree commutes with a product along the row.
-/
import Idealize.ShloMosaic.PureOps.Ideal
import Idealize.ShloMosaic.Lib.ValueIdx

noncomputable section

open scoped BigOperators

namespace Cert.Gcn

open Idealize.ShloMosaic Idealize.ShloMosaic.ValueIdx

/-! ## Arrays read at coordinates -/

/-- A two-axis array as a function of its two coordinates. -/
def mat {a b : Nat} {α : Type} (x : (⟨2, ![a, b]⟩ : Shape).Idx → α) : Fin a → Fin b → α := fun i j => x (ix2 i j)
/-- A one-axis array as a function of its coordinate. -/
def vec {a : Nat} {α : Type} (x : (⟨1, ![a]⟩ : Shape).Idx → α) : Fin a → α := fun i => x (ix1 i)

/-- Edge `e` lands on node `n`: the edge's index word, read signed, is `n`. -/
def hitOf {E N : Nat} (idx : IVec ⟨2, ![E, 1]⟩ 32) (e : Fin E) (n : Fin N) : Prop :=
  (idx (ix2 e ⟨0, Nat.one_pos⟩)).toInt = (n.val : Int)

instance {E N : Nat} (idx : IVec ⟨2, ![E, 1]⟩ 32) (e : Fin E) (n : Fin N) : Decidable (hitOf idx e n) := by
  unfold hitOf; infer_instance

/-- The node edge `e` reads: its index word, read signed and clamped into `[0, N − 1]`. -/
def srcOf {E N : Nat} (hN : 0 < N) (idx : IVec ⟨2, ![E, 1]⟩ 32) (e : Fin E) : Fin N :=
  ⟨min (idx (ix2 e ⟨0, Nat.one_pos⟩)).toInt.toNat (N - 1), by omega⟩

/-! ## The edge list's two index columns -/

abbrev SEI : Shape := ⟨2, ![2, 1600000]⟩
abbrev S1E : Shape := ⟨2, ![1, 1600000]⟩
abbrev SE : Shape := ⟨1, ![1600000]⟩
abbrev SE1 : Shape := ⟨2, ![1600000, 1]⟩
abbrev S0 : Shape := ⟨0, ![]⟩

/-- The shape relations the edge list's slicing, reshaping and re-broadcasting ask for. -/
structure EdgeFacts : Prop where
  sl0 : SEI.Slices ![0, 0] S1E
  sl1 : SEI.Slices ![1, 0] S1E
  sc : S1E.ShapeCasts SE
  bc : SE.BroadcastsInDim SE1 (![0] : Fin 1 → Fin SE1.rank)
  b0 : S0.BroadcastsInDim SE (![] : Fin 0 → Fin SE.rank)

/-- Row 0 of the edge list (each edge's destination), as an `[E, 1]` index column. -/
def rowIdx (h : EdgeFacts) (ei : IVec SEI 32) : IVec SE1 32 :=
  broadcastInDim SE1 ![0] h.bc (shapeCast SE (extractStridedSlice S1E ![0, 0] ei h.sl0) h.sc)

/-- Row 1 of the edge list (each edge's source) as a vector. -/
def colWords (h : EdgeFacts) (ei : IVec SEI 32) : IVec SE 32 :=
  shapeCast SE (extractStridedSlice S1E ![1, 0] ei h.sl1) h.sc

/-- Each edge's source, a negative word wrapped by the node count, as an `[E, 1]` index column. -/
def colIdx (h : EdgeFacts) (ei : IVec SEI 32) : IVec SE1 32 :=
  broadcastInDim SE1 ![0] h.bc
    (select (cmpi .slt (colWords h ei) (broadcastInDim SE ![] h.b0 (constantI S0 32 0#32)))
      (addi (colWords h ei) (broadcastInDim SE ![] h.b0 (constantI S0 32 100000#32))) (colWords h ei))

/-! ## The two arrangements -/

section
variable {ι ε α β γ : Type} [Fintype ι] [Fintype ε] [Fintype α] [Fintype β] [Fintype γ]
variable (hit : ε → ι → Prop) [∀ e n, Decidable (hit e n)] (src : ε → ι)

/-- The segment sum at node `n`: the entries of the edges that land on `n`. -/
def seg (u : ε → EReal) (n : ι) : EReal := ∑ e, if hit e n then u e else 0
/-- The degree of node `n`, clipped below at one. -/
def deg (n : ι) : EReal := max 1 (seg hit (fun _ => 1) n)
/-- Its reciprocal. -/
def inv (n : ι) : EReal := Ideal.div 1 (deg hit n)

variable (X : ι → α → EReal) (W1 : α → β → EReal) (B1 : β → EReal) (W2 : β → γ → EReal) (B2 : γ → EReal)

/-- The hidden layer, with the reciprocal degree as a factor. -/
def hidK (n : ι) (k : β) : EReal :=
  max ((∑ j, (seg hit (fun e => X (src e) j) n * inv hit n + X n j) * W1 j k) + B1 k) 0
/-- The hidden layer's rows through the second weight matrix. -/
def projK (n : ι) (q : γ) : EReal := ∑ k, hidK hit src X W1 B1 n k * W2 k q
/-- The second layer over the projected rows. -/
def outK (n : ι) (q : γ) : EReal :=
  seg hit (fun e => projK hit src X W1 B1 W2 (src e) q) n * inv hit n + projK hit src X W1 B1 W2 n q + B2 q

/-- The hidden layer, dividing by the degree. -/
def hidR (n : ι) (k : β) : EReal :=
  max ((∑ j, (Ideal.div (seg hit (fun e => X (src e) j) n) (deg hit n) + X n j) * W1 j k) + B1 k) 0
/-- The second layer: aggregate the hidden rows, divide, add the own row, then the weight matrix and the bias. -/
def outR (n : ι) (q : γ) : EReal :=
  (∑ k, (Ideal.div (seg hit (fun e => hidR hit src X W1 B1 (src e) k) n) (deg hit n) + hidR hit src X W1 B1 n k) * W2 k q) + B2 q

end

end Cert.Gcn

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KHostDefs.lean ====
/-
  The arrays the idealized kernel program's host operations compute from the edge list, as functions of the arguments:
  the segment sum of gathered rows, and the reciprocal of each node's clipped in-degree.
-/
import proofs.«181870_j23922967838756_2_alg».proof.KernelIdeal
import proofs.«181870_j23922967838756_2_alg».proof.Proof.GcnSpec

noncomputable section

open Idealize.ShloMosaic

namespace Cert.KernelIdeal.Val

open Cert.KernelIdeal

variable [Cert.KernelIdeal.Facts]

/-- The shape relations of the edge list's slicing, from the program's stated facts. -/
def edgeFacts : Cert.Gcn.EdgeFacts :=
  ⟨Facts₀.slices_S2x1600000_S1x1600000_0_0, Facts₀.slices_S2x1600000_S1x1600000_1_0, Facts₀.shapeCasts_S1x1600000_S1600000,
    Facts₀.bcast_S1600000_S1600000x1_0, Facts₀.bcast_S_S1600000⟩

/-- Each edge's source row of `x` added into its destination row of a zero array. -/
def aggArr (x : FVec Ideal S100000x64 .f32) (ei : IVec S2x1600000 32) : FVec Ideal S100000x64 .f32 :=
  Host.scatterAdd scatter_S100000x64_S1600000x1_S1600000x64_1_0_0_1
    (broadcastInDim S100000x64 ![] Facts₀.bcast_S_S100000x64 (constant S_ .f32 0x00000000#32))
    (Cert.Gcn.rowIdx edgeFacts ei)
    (Host.gather gather_S100000x64_S1600000x1_S1600000x64_1_0_n_n_0_1_164 x (Cert.Gcn.colIdx edgeFacts ei))

/-- The reciprocal of each node's clipped in-degree, as a column. -/
def invArr (ei : IVec S2x1600000 32) : FVec Ideal S100000x1 .f32 :=
  broadcastInDim S100000x1 ![0] Facts₀.bcast_S100000_S100000x1_0
    (Host.divf (broadcastInDim S100000 ![] Facts₀.bcast_S_S100000 (constant S_ .f32 0x3F800000#32))
      (maximumf (broadcastInDim S100000 ![] Facts₀.bcast_S_S100000 (id (constant S_ .f32 0x3F800000#32)))
        (Host.scatterAdd scatter_S100000_S1600000x1_S1600000_n_0_0_1
          (broadcastInDim S100000 ![] Facts₀.bcast_S_S100000 (constant S_ .f32 0x00000000#32))
          (Cert.Gcn.rowIdx edgeFacts ei)
          (broadcastInDim S1600000 ![] Facts₀.bcast_S_S1600000 (constant S_ .f32 0x3F800000#32)))))

end Cert.KernelIdeal.Val

end
-- ==== Proof.KHostA.lean ====
/-
  The idealized kernel program's first host operations, read as values of the arguments: the edge list's two rows, each
  node's in-degree count (a segment sum of ones) and its clip below at one; the arguments read back unchanged.
-/
import proofs.«181870_j23922967838756_2_alg».proof.Proof.Gen.KernelIdeal.Frame
import proofs.«181870_j23922967838756_2_alg».proof.Proof.GcnSpec
import proofs.«181870_j23922967838756_2_alg».proof.Proof.LibPlainMatmul
import proofs.«181870_j23922967838756_2_alg».proof.Proof.LibKeepdims
import proofs.«181870_j23922967838756_2_alg».proof.Proof.KHostDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable {F : FTy → Type} [FloatOps F]
variable (m : (ℓ : Loc nD τ sig) → Buf (Elt F) ℓ) (ρ : Dev nD → PrngReg)

/-! ## After the first stretch: the edge rows and the in-degree count -/

theorem W1_v1 (c : Dev nD) : (W1 m ρ c (Proc.devRef .tc main_v1) : S1600000.Idx → BitVec 32)
    = shapeCast S1600000 (extractStridedSlice S1x1600000 ![0, 0] (m ((c : Thread nD τ).loc main_arg1)) slices_S2x1600000_S1x1600000_0_0) shapeCasts_S1x1600000_S1600000 := by
  show StableHlo.after hostOps0 (W0 m ρ c) (Proc.devRef .tc main_v1) = _
  after_results
  rfl

theorem W1_v3 (c : Dev nD) : (W1 m ρ c (Proc.devRef .tc main_v3) : S1600000.Idx → BitVec 32)
    = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results
  rfl

theorem W1_v7 (c : Dev nD) : (W1 m ρ c (Proc.devRef .tc main_v7) : FVec F S100000 .f32)
    = (Host.scatterAdd scatter_S100000_S1600000x1_S1600000_n_0_0_1
        (broadcastInDim S100000 ![] bcast_S_S100000 (constant S_ .f32 0x00000000#32))
        (Cert.Gcn.rowIdx edgeFacts (m ((c : Thread nD τ).loc main_arg1)))
        (broadcastInDim S1600000 ![] bcast_S_S1600000 (constant S_ .f32 0x3F800000#32)) : FVec F S100000 .f32) := by
  show StableHlo.after hostOps0 (W0 m ρ c) (Proc.devRef .tc main_v7) = _
  after_results
  rfl

theorem W1_cst1 (c : Dev nD) : (W1 m ρ c (Proc.devRef .tc main_cst_1) : FVec F S_ .f32) = (constant S_ .f32 0x3F800000#32 : FVec F S_ .f32) := by
  show StableHlo.after hostOps0 (W0 m ρ c) (Proc.devRef .tc main_cst_1) = _
  after_results

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

/-! ## After the clip: the clipped count; everything else as before -/

theorem W2_v8 (c : Dev nD) : (W2 m ρ c (Proc.devRef .tc main_v8) : FVec F S100000 .f32)
    = (maximumf (broadcastInDim S100000 ![] bcast_S_S100000 (id (constant S_ .f32 0x3F800000#32)))
        (Host.scatterAdd scatter_S100000_S1600000x1_S1600000_n_0_0_1
          (broadcastInDim S100000 ![] bcast_S_S100000 (constant S_ .f32 0x00000000#32))
          (Cert.Gcn.rowIdx edgeFacts (m ((c : Thread nD τ).loc main_arg1)))
          (broadcastInDim S1600000 ![] bcast_S_S1600000 (constant S_ .f32 0x3F800000#32))) : FVec F S100000 .f32) := by
  show StableHlo.after hostOps0_1 (W1 m ρ c) (Proc.devRef .tc main_v8) = _
  have e7 := W1_v7 m ρ c
  have ec := W1_cst1 m ρ c
  generalize W1 m ρ c = F0 at e7 ec ⊢
  after_results
  rw [e7, ec]
  rfl

theorem W2_keep_v1 (c : Dev nD) : W2 m ρ c (Proc.devRef .tc main_v1) = W1 m ρ c (Proc.devRef .tc main_v1) := by
  show StableHlo.after hostOps0_1 (W1 m ρ c) (Proc.devRef .tc main_v1) = _
  generalize W1 m ρ c = F0
  after_results

theorem W2_keep_v3 (c : Dev nD) : W2 m ρ c (Proc.devRef .tc main_v3) = W1 m ρ c (Proc.devRef .tc main_v3) := by
  show StableHlo.after hostOps0_1 (W1 m ρ c) (Proc.devRef .tc main_v3) = _
  generalize W1 m ρ c = F0
  after_results

theorem W2_keep_arg0 (c : Dev nD) : W2 m ρ c (Proc.devRef .tc main_arg0) = W1 m ρ c (Proc.devRef .tc main_arg0) := by
  show StableHlo.after hostOps0_1 (W1 m ρ c) (Proc.devRef .tc main_arg0) = _
  generalize W1 m ρ c = F0
  after_results

theorem W2_keep_arg2 (c : Dev nD) : W2 m ρ c (Proc.devRef .tc main_arg2) = W1 m ρ c (Proc.devRef .tc main_arg2) := by
  show StableHlo.after hostOps0_1 (W1 m ρ c) (Proc.devRef .tc main_arg2) = _
  generalize W1 m ρ c = F0
  after_results

theorem W2_keep_arg3 (c : Dev nD) : W2 m ρ c (Proc.devRef .tc main_arg3) = W1 m ρ c (Proc.devRef .tc main_arg3) := by
  show StableHlo.after hostOps0_1 (W1 m ρ c) (Proc.devRef .tc main_arg3) = _
  generalize W1 m ρ c = F0
  after_results

theorem W2_keep_arg4 (c : Dev nD) : W2 m ρ c (Proc.devRef .tc main_arg4) = W1 m ρ c (Proc.devRef .tc main_arg4) := by
  show StableHlo.after hostOps0_1 (W1 m ρ c) (Proc.devRef .tc main_arg4) = _
  generalize W1 m ρ c = F0
  after_results

theorem W2_keep_arg5 (c : Dev nD) : W2 m ρ c (Proc.devRef .tc main_arg5) = W1 m ρ c (Proc.devRef .tc main_arg5) := by
  show StableHlo.after hostOps0_1 (W1 m ρ c) (Proc.devRef .tc main_arg5) = _
  generalize W1 m ρ c = F0
  after_results

end Cert.KernelIdeal.Val

end
-- ==== Proof.KHostB.lean ====
/-
  The idealized kernel program's host operations up to the first pallas_call: what that call is entered with — the
  aggregated neighbour rows, the reciprocal-degree column, the bias row — as values of the arguments, and the
  arguments and the edge rows read back unchanged.
-/
import proofs.«181870_j23922967838756_2_alg».proof.Proof.Gen.KernelIdeal.Frame
import proofs.«181870_j23922967838756_2_alg».proof.Proof.GcnSpec
import proofs.«181870_j23922967838756_2_alg».proof.Proof.LibPlainMatmul
import proofs.«181870_j23922967838756_2_alg».proof.Proof.LibKeepdims
import proofs.«181870_j23922967838756_2_alg».proof.Proof.KHostA
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-! ## At the first call's entry -/

theorem W3_v11 (c : Dev nD) : (W3 m ρ c (Proc.devRef .tc main_v11) : S100000x1.Idx → EReal) = invArr (m ((c : Thread nD τ).loc main_arg1)) := by
  show StableHlo.after hostOps0_2 (W2 m ρ c) (Proc.devRef .tc main_v11) = _
  have e8 := W2_v8 m ρ c
  generalize W2 m ρ c = F0 at e8 ⊢
  after_results_simp
  rw [e8]
  rfl

set_option maxHeartbeats 4000000 in
theorem W3_v21 (c : Dev nD) : (W3 m ρ c (Proc.devRef .tc main_v21) : S100000x64.Idx → EReal)
    = aggArr (m ((c : Thread nD τ).loc main_arg0)) (m ((c : Thread nD τ).loc main_arg1)) := by
  show StableHlo.after hostOps0_2 (W2 m ρ c) (Proc.devRef .tc main_v21) = _
  have e1 := (W2_keep_v1 m ρ c).trans (W1_v1 m ρ c)
  have e3 := (W2_keep_v3 m ρ c).trans (W1_v3 m ρ c)
  have e0 := (W2_keep_arg0 m ρ c).trans (W1_arg0 m ρ c)
  generalize W2 m ρ c = F0 at e1 e3 e0 ⊢
  after_results_simp
  rw [e1, e3, e0]
  rfl

theorem W3_v22 (c : Dev nD) : (W3 m ρ c (Proc.devRef .tc main_v22) : S1x128.Idx → EReal)
    = shapeCast S1x128 (m ((c : Thread nD τ).loc main_arg3)) shapeCasts_S128_S1x128 := by
  show StableHlo.after hostOps0_2 (W2 m ρ c) (Proc.devRef .tc main_v22) = _
  have e3 := (W2_keep_arg3 m ρ c).trans (W1_arg3 m ρ c)
  generalize W2 m ρ c = F0 at e3 ⊢
  after_results_simp
  rw [e3]
  rfl

theorem W3_keep_v1 (c : Dev nD) : W3 m ρ c (Proc.devRef .tc main_v1) = W2 m ρ c (Proc.devRef .tc main_v1) := by
  show StableHlo.after hostOps0_2 (W2 m ρ c) (Proc.devRef .tc main_v1) = _
  generalize W2 m ρ c = F0
  after_results_simp

theorem W3_keep_v3 (c : Dev nD) : W3 m ρ c (Proc.devRef .tc main_v3) = W2 m ρ c (Proc.devRef .tc main_v3) := by
  show StableHlo.after hostOps0_2 (W2 m ρ c) (Proc.devRef .tc main_v3) = _
  generalize W2 m ρ c = F0
  after_results_simp

theorem W3_keep_arg0 (c : Dev nD) : W3 m ρ c (Proc.devRef .tc main_arg0) = W2 m ρ c (Proc.devRef .tc main_arg0) := by
  show StableHlo.after hostOps0_2 (W2 m ρ c) (Proc.devRef .tc main_arg0) = _
  generalize W2 m ρ c = F0
  after_results_simp

theorem W3_keep_arg2 (c : Dev nD) : W3 m ρ c (Proc.devRef .tc main_arg2) = W2 m ρ c (Proc.devRef .tc main_arg2) := by
  show StableHlo.after hostOps0_2 (W2 m ρ c) (Proc.devRef .tc main_arg2) = _
  generalize W2 m ρ c = F0
  after_results_simp

theorem W3_keep_arg4 (c : Dev nD) : W3 m ρ c (Proc.devRef .tc main_arg4) = W2 m ρ c (Proc.devRef .tc main_arg4) := by
  show StableHlo.after hostOps0_2 (W2 m ρ c) (Proc.devRef .tc main_arg4) = _
  generalize W2 m ρ c = F0
  after_results_simp

theorem W3_keep_arg5 (c : Dev nD) : W3 m ρ c (Proc.devRef .tc main_arg5) = W2 m ρ c (Proc.devRef .tc main_arg5) := by
  show StableHlo.after hostOps0_2 (W2 m ρ c) (Proc.devRef .tc main_arg5) = _
  generalize W2 m ρ c = F0
  after_results_simp

/-! The arguments and the edge rows at the first call's entry -/

theorem W3_arg0 (c : Dev nD) : W3 m ρ c (Proc.devRef .tc main_arg0) = m ((c : Thread nD τ).loc main_arg0) :=
  ((W3_keep_arg0 m ρ c).trans (W2_keep_arg0 m ρ c)).trans (W1_arg0 m ρ c)
theorem W3_arg2 (c : Dev nD) : W3 m ρ c (Proc.devRef .tc main_arg2) = m ((c : Thread nD τ).loc main_arg2) :=
  ((W3_keep_arg2 m ρ c).trans (W2_keep_arg2 m ρ c)).trans (W1_arg2 m ρ c)
theorem W3_arg4 (c : Dev nD) : W3 m ρ c (Proc.devRef .tc main_arg4) = m ((c : Thread nD τ).loc main_arg4) :=
  ((W3_keep_arg4 m ρ c).trans (W2_keep_arg4 m ρ c)).trans (W1_arg4 m ρ c)
theorem W3_arg5 (c : Dev nD) : W3 m ρ c (Proc.devRef .tc main_arg5) = m ((c : Thread nD τ).loc main_arg5) :=
  ((W3_keep_arg5 m ρ c).trans (W2_keep_arg5 m ρ c)).trans (W1_arg5 m ρ c)
theorem W3_v1 (c : Dev nD) : (W3 m ρ c (Proc.devRef .tc main_v1) : S1600000.Idx → BitVec 32)
    = shapeCast S1600000 (extractStridedSlice S1x1600000 ![0, 0] (m ((c : Thread nD τ).loc main_arg1)) slices_S2x1600000_S1x1600000_0_0) shapeCasts_S1x1600000_S1600000 :=
  ((W3_keep_v1 m ρ c).trans (W2_keep_v1 m ρ c)).trans (W1_v1 m ρ c)
theorem W3_v3 (c : Dev nD) : (W3 m ρ c (Proc.devRef .tc main_v3) : S1600000.Idx → BitVec 32)
    = shapeCast S1600000 (extractStridedSlice S1x1600000 ![1, 0] (m ((c : Thread nD τ).loc main_arg1)) slices_S2x1600000_S1x1600000_1_0) shapeCasts_S1x1600000_S1600000 :=
  ((W3_keep_v3 m ρ c).trans (W2_keep_v3 m ρ c)).trans (W1_v3 m ρ c)

end Cert.KernelIdeal.Val

end
-- ==== Proof.KHost.lean ====
/-
  What the three pallas_calls of the idealized kernel program are entered with, as values of the arguments.

  Neither of the first two calls writes an argument, an edge row or the reciprocal-degree column, so those are read at the
  later boundaries as at the first call's entry.  Between the second and the third call the host adds each edge's source
  row of the projected hidden rows (the second call's result) into its destination row: the segment sum of gathered rows
  again, of another array.  The last call's result buffer ends at what its write-backs leave.
-/
import proofs.«181870_j23922967838756_2_alg».proof.Proof.Gen.KernelIdeal.Frame
import proofs.«181870_j23922967838756_2_alg».proof.Proof.GcnSpec
import proofs.«181870_j23922967838756_2_alg».proof.Proof.LibPlainMatmul
import proofs.«181870_j23922967838756_2_alg».proof.Proof.LibKeepdims
import proofs.«181870_j23922967838756_2_alg».proof.Proof.KHostB
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-! ## Through the first two calls: neither writes an argument, an edge row or the reciprocal-degree column -/

theorem W4_arg4 (c : Dev nD) : W4 m ρ c (Proc.devRef .tc main_arg4) = m ((c : Thread nD τ).loc main_arg4) :=
  (W4_of_ne m ρ c main_arg4 (by decide)).trans (W3_arg4 m ρ c)

theorem W5_keep (c : Dev nD) (b : Ref sig .tc) (h0 : ∀ w, Pipeline.arrRef spec0 w ≠ b) (h1 : ∀ w, Pipeline.arrRef spec1 w ≠ b) :
    W5 m ρ c (Proc.devRef .tc b) = W3 m ρ c (Proc.devRef .tc b) :=
  (W5_of_ne m ρ c b h1).trans (W4_of_ne m ρ c b h0)

/-! ## At the third call's entry -/

theorem W6_v24 (c : Dev nD) : W6 m ρ c (Proc.devRef .tc main_v24) = (dat1 (V4 m ρ) c).arrAt 2 cfg1.N := by
  show StableHlo.after hostOps2 (W5 m ρ c) (Proc.devRef .tc main_v24) = _
  have e := W5_arr m ρ c 2
  generalize W5 m ρ c = F0 at e ⊢
  after_results_simp
  exact e

theorem W6_v11 (c : Dev nD) : (W6 m ρ c (Proc.devRef .tc main_v11) : S100000x1.Idx → EReal) = invArr (m ((c : Thread nD τ).loc main_arg1)) := by
  show StableHlo.after hostOps2 (W5 m ρ c) (Proc.devRef .tc main_v11) = _
  have e : W5 m ρ c (Proc.devRef .tc main_v11) = invArr (m ((c : Thread nD τ).loc main_arg1)) :=
    (((W5_of_ne m ρ c main_v11 (by decide)).trans ((W4_arr m ρ c 1).trans (((dat0 (V3 m ρ) c).arrAt_in 1 rfl _).trans (A_eq0 (V3 m ρ) c 1)))).trans (W3_v11 m ρ c))
  generalize W5 m ρ c = F0 at e ⊢
  after_results_simp
  exact e

theorem W6_v35 (c : Dev nD) : (W6 m ρ c (Proc.devRef .tc main_v35) : S1x64.Idx → EReal)
    = shapeCast S1x64 (m ((c : Thread nD τ).loc main_arg5)) shapeCasts_S64_S1x64 := by
  show StableHlo.after hostOps2 (W5 m ρ c) (Proc.devRef .tc main_v35) = _
  have e := (W5_keep m ρ c main_arg5 (by decide) (by decide)).trans (W3_arg5 m ρ c)
  generalize W5 m ρ c = F0 at e ⊢
  after_results_simp
  rw [e]
  rfl

set_option maxHeartbeats 4000000 in
theorem W6_v34 (c : Dev nD) : (W6 m ρ c (Proc.devRef .tc main_v34) : S100000x64.Idx → EReal)
    = aggArr ((dat1 (V4 m ρ) c).arrAt 2 cfg1.N) (m ((c : Thread nD τ).loc main_arg1)) := by
  show StableHlo.after hostOps2 (W5 m ρ c) (Proc.devRef .tc main_v34) = _
  have e1 := (W5_keep m ρ c main_v1 (by decide) (by decide)).trans (W3_v1 m ρ c)
  have e3 := (W5_keep m ρ c main_v3 (by decide) (by decide)).trans (W3_v3 m ρ c)
  have e24 := W5_arr m ρ c 2
  generalize W5 m ρ c = F0 at e1 e3 e24 ⊢
  after_results_simp
  rw [e1, e3]
  rw [show F0 (Proc.devRef .tc main_v24) = (dat1 (V4 m ρ) c).arrAt 2 cfg1.N from e24]
  rfl

/-! ## What the three regions are entered with, and what the last one leaves -/

theorem V3_v21 (c : Dev nD) : (V3 m ρ c main_v21 : S100000x64.Idx → EReal) = aggArr (m ((c : Thread nD τ).loc main_arg0)) (m ((c : Thread nD τ).loc main_arg1)) := W3_v21 m ρ c
theorem V3_v11 (c : Dev nD) : (V3 m ρ c main_v11 : S100000x1.Idx → EReal) = invArr (m ((c : Thread nD τ).loc main_arg1)) := W3_v11 m ρ c
theorem V3_v22 (c : Dev nD) : (V3 m ρ c main_v22 : S1x128.Idx → EReal) = shapeCast S1x128 (m ((c : Thread nD τ).loc main_arg3)) shapeCasts_S128_S1x128 := W3_v22 m ρ c
theorem V3_arg0 (c : Dev nD) : V3 m ρ c main_arg0 = m ((c : Thread nD τ).loc main_arg0) := W3_arg0 m ρ c
theorem V3_arg2 (c : Dev nD) : V3 m ρ c main_arg2 = m ((c : Thread nD τ).loc main_arg2) := W3_arg2 m ρ c
theorem V4_v23 (c : Dev nD) : V4 m ρ c main_v23 = (dat0 (V3 m ρ) c).arrAt 5 cfg0.N := W4_arr m ρ c 5
theorem V4_arg4 (c : Dev nD) : V4 m ρ c main_arg4 = m ((c : Thread nD τ).loc main_arg4) := W4_arg4 m ρ c
theorem V6_v24 (c : Dev nD) : V6 m ρ c main_v24 = (dat1 (V4 m ρ) c).arrAt 2 cfg1.N := W6_v24 m ρ c
theorem V6_v34 (c : Dev nD) : (V6 m ρ c main_v34 : S100000x64.Idx → EReal) = aggArr ((dat1 (V4 m ρ) c).arrAt 2 cfg1.N) (m ((c : Thread nD τ).loc main_arg1)) := W6_v34 m ρ c
theorem V6_v11 (c : Dev nD) : (V6 m ρ c main_v11 : S100000x1.Idx → EReal) = invArr (m ((c : Thread nD τ).loc main_arg1)) := W6_v11 m ρ c
theorem V6_v35 (c : Dev nD) : (V6 m ρ c main_v35 : S1x64.Idx → EReal) = shapeCast S1x64 (m ((c : Thread nD τ).loc main_arg5)) shapeCasts_S64_S1x64 := W6_v35 m ρ c
theorem W7_v36 (c : Dev nD) : W7 m ρ c (Proc.devRef .tc main_v36) = (dat2 (V6 m ρ) c).arrAt 4 cfg2.N := W7_arr m ρ c 4

end Cert.KernelIdeal.Val

end
-- ==== Proof.LibSegmentOps.lean ====
/-
  Row-indexed host operations read at coordinates: a `stablehlo.scatter` with an `add` body that adds rows of an
  `[E, C]` update array (or entries of an `[E]` vector) into an `[N, C]` array (an `[N]` vector) at the rows named by an
  `[E, 1]` index array, and the `stablehlo.gather` that takes rows of an `[N, C]` array at such indices.  At the ideal
  instance an accumulating scatter is the operand plus the sum, over the update rows whose index — read as a signed
  integer — is the row in question, of the update's element in the same column; a start index outside `[0, N)` names
  no row and its update is dropped.  A row gather reads the row whose number is the index clamped into `[0, N − 1]`.
-/
import Idealize.ShloMosaic.Lib.ValueIdx
import Idealize.ShloMosaic.PureOps.Ideal.Laws

noncomputable section

open scoped BigOperators

namespace Cert.Lib.SegmentOps

open Idealize.ShloMosaic Idealize.ShloMosaic.ValueIdx

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An axis is kept exactly when it is not among the removed ones. -/
theorem mem_kept {s : Shape} (axes : List (Fin s.rank)) (a : Fin s.rank) : a ∈ s.kept axes ↔ a ∉ axes := by
  simp [Shape.kept, List.mem_filter, List.mem_finRange]

theorem one_not_mem_zero : (1 : Fin 2) ∉ ([0] : List (Fin 2)) := by decide

/-! ## Rows of `[E, C]` added into `[N, C]` -/

section Rows
variable {N E C w : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hiv : d.indexVectorDim = 1)

include huw hiw hsd hiv in
/-- Update element `(e, c')` lands on `(n, c)` exactly when row `e`'s index, read signed, is `n` and the columns agree. -/
theorem rows_resultIdx_iff (idx : IVec ⟨2, ![E, 1]⟩ w) (e : Fin E) (c' : Fin C) (n : Fin N) (c : Fin C) :
    d.resultIdx? (ix2 e c') idx = some (ix2 n c) ↔ (idx (ix2 e ⟨0, Nat.one_pos⟩)).toInt = (n.val : Int) ∧ c' = c := by
  obtain ⟨uw, iw, sd, iv, wf⟩ := d
  simp only at huw hiw hsd hiv
  subst huw hiw hsd hiv
  set d : ScatterDims ⟨2, ![N, C]⟩ ⟨2, ![E, 1]⟩ ⟨2, ![E, C]⟩ := ⟨[1], [0], [0], 1, wf⟩ with hd
  have hs0 : d.start (ix2 e c') idx 0 = (idx (ix2 e ⟨0, Nat.one_pos⟩)).toInt := by
    unfold ScatterDims.start
    rw [dif_pos (show (0 : Fin 2) ∈ d.scatterDimsToOperandDims from List.mem_singleton.mpr rfl)]
    congr 2
    funext b; refine Fin.ext ?_
    match b with
    | ⟨0, _⟩ => rfl
    | ⟨1, _⟩ => rfl
  have hs1 : d.start (ix2 e c') idx 1 = 0 := by
    unfold ScatterDims.start
    rw [dif_neg (show (1 : Fin 2) ∉ d.scatterDimsToOperandDims from one_not_mem_zero)]
  have hw0 : d.window (ix2 e c') 0 = 0 := by
    unfold ScatterDims.window
    rw [dif_neg (show (0 : Fin 2) ∉ d.sKept from fun h => (mem_kept _ _).1 h (List.mem_singleton.mpr rfl))]
  have hw1 : d.window (ix2 e c') 1 = c'.val := by
    unfold ScatterDims.window
    rw [dif_pos (show (1 : Fin 2) ∈ d.sKept from (mem_kept _ _).2 one_not_mem_zero)]
    rfl
  unfold ScatterDims.resultIdx?
  split
  · next h =>
    rw [Option.some.injEq]
    constructor
    · intro hf
      have h0 := congrArg (fun f => (f 0).val) hf
      have h1 := congrArg (fun f => (f 1).val) hf
      simp only [hs0, hs1, hw0, hw1] at h0 h1
      have hh := (h 0).1
      rw [hs0, hw0] at hh
      refine ⟨?_, Fin.ext ?_⟩
      · show _ = (n.val : Int)
        change ((idx (ix2 e ⟨0, Nat.one_pos⟩)).toInt + ((0 : Nat) : Int)).toNat = n.val at h0
        omega
      · change ((0 : Int) + (c'.val : Int)).toNat = c.val at h1
        omega
    · rintro ⟨h0, rfl⟩
      funext a; refine Fin.ext ?_
      match a with
      | ⟨0, _⟩ =>
        show (d.start (ix2 e c') idx 0 + (d.window (ix2 e c') 0 : Int)).toNat = n.val
        rw [hs0, hw0, h0]; omega
      | ⟨1, _⟩ =>
        show (d.start (ix2 e c') idx 1 + (d.window (ix2 e c') 1 : Int)).toNat = c'.val
        rw [hs1, hw1]; omega
  · next h =>
    constructor
    · intro hf; exact absurd hf (by simp)
    · rintro ⟨h0, rfl⟩
      exfalso; apply h
      intro a
      match a with
      | ⟨0, _⟩ =>
        show 0 ≤ d.start (ix2 e c') idx 0 + (d.window (ix2 e c') 0 : Int) ∧ d.start (ix2 e c') idx 0 + (d.window (ix2 e c') 0 : Int) < (N : Int)
        rw [hs0, hw0, h0]; have := n.isLt; omega
      | ⟨1, _⟩ =>
        show 0 ≤ d.start (ix2 e c') idx 1 + (d.window (ix2 e c') 1 : Int) ∧ d.start (ix2 e c') idx 1 + (d.window (ix2 e c') 1 : Int) < (C : Int)
        rw [hs1, hw1]; have := c'.isLt; omega

include huw hiw hsd hiv in
/-- THE ACCUMULATING ROW SCATTER AT `(n, c)`, at the ideal instance: the operand's element plus the sum over the update rows
    `e` whose index is `n` of the update's element `(e, c)`. -/
theorem rows_scatterAdd_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e ⟨0, Nat.one_pos⟩)).toInt = (n.val : Int) then upd (ix2 e c) else 0 := by
  show x (ix2 n c) + ∑ j ∈ Finset.univ.filter (fun j => d.resultIdx? j idx = some (ix2 n c)), upd j = _
  congr 1
  rw [Finset.sum_filter, sum_idx2]
  refine Finset.sum_congr rfl fun e _ => ?_
  simp only [rows_resultIdx_iff d huw hiw hsd hiv]
  by_cases hc : (idx (ix2 e ⟨0, Nat.one_pos⟩)).toInt = (n.val : Int)
  · simp only [hc, true_and, if_true]
    rw [Finset.sum_ite_eq' Finset.univ c (fun c' => upd (ix2 e c'))]
    simp
  · simp only [hc, false_and, if_false, Finset.sum_const_zero]

end Rows

/-! ## Entries of `[E]` added into `[N]` -/

section Entries
variable {N E w : Nat} (d : ScatterDims ⟨1, ![N]⟩ ⟨2, ![E, 1]⟩ ⟨1, ![E]⟩)
  (huw : d.updateWindowDims = []) (hiw : d.insertedWindowDims = [0])
  (hsd : d.scatterDimsToOperandDims = [0]) (hiv : d.indexVectorDim = 1)

include huw hiw hsd hiv in
/-- Update entry `e` lands on `n` exactly when its index, read signed, is `n`. -/
theorem entries_resultIdx_iff (idx : IVec ⟨2, ![E, 1]⟩ w) (e : Fin E) (n : Fin N) :
    d.resultIdx? (ix1 e) idx = some (ix1 n) ↔ (idx (ix2 e ⟨0, Nat.one_pos⟩)).toInt = (n.val : Int) := by
  obtain ⟨uw, iw, sd, iv, wf⟩ := d
  simp only at huw hiw hsd hiv
  subst huw hiw hsd hiv
  set d : ScatterDims ⟨1, ![N]⟩ ⟨2, ![E, 1]⟩ ⟨1, ![E]⟩ := ⟨[], [0], [0], 1, wf⟩ with hd
  have hs0 : d.start (ix1 e) idx 0 = (idx (ix2 e ⟨0, Nat.one_pos⟩)).toInt := by
    unfold ScatterDims.start
    rw [dif_pos (show (0 : Fin 1) ∈ d.scatterDimsToOperandDims from List.mem_singleton.mpr rfl)]
    congr 2
    funext b; refine Fin.ext ?_
    match b with
    | ⟨0, _⟩ => rfl
    | ⟨1, _⟩ => rfl
  have hw0 : d.window (ix1 e) 0 = 0 := by
    unfold ScatterDims.window
    rw [dif_neg (show (0 : Fin 1) ∉ d.sKept from fun h => (mem_kept _ _).1 h (List.mem_singleton.mpr rfl))]
  unfold ScatterDims.resultIdx?
  split
  · next h =>
    rw [Option.some.injEq]
    constructor
    · intro hf
      have h0 := congrArg (fun f => (f 0).val) hf
      simp only [hs0, hw0] at h0
      have hh := (h 0).1
      rw [hs0, hw0] at hh
      change ((idx (ix2 e ⟨0, Nat.one_pos⟩)).toInt + ((0 : Nat) : Int)).toNat = n.val at h0
      omega
    · intro h0
      funext a; refine Fin.ext ?_
      match a with
      | ⟨0, _⟩ =>
        show (d.start (ix1 e) idx 0 + (d.window (ix1 e) 0 : Int)).toNat = n.val
        rw [hs0, hw0, h0]; omega
  · next h =>
    constructor
    · intro hf; exact absurd hf (by simp)
    · intro h0
      exfalso; apply h
      intro a
      match a with
      | ⟨0, _⟩ =>
        show 0 ≤ d.start (ix1 e) idx 0 + (d.window (ix1 e) 0 : Int) ∧ d.start (ix1 e) idx 0 + (d.window (ix1 e) 0 : Int) < (N : Int)
        rw [hs0, hw0, h0]; have := n.isLt; omega

include huw hiw hsd hiv in
/-- THE ACCUMULATING ENTRY SCATTER AT `n`, at the ideal instance: the operand's entry plus the sum over the update entries
    `e` whose index is `n`. -/
theorem entries_scatterAdd_apply {φ : FTy} (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e ⟨0, Nat.one_pos⟩)).toInt = (n.val : Int) then upd (ix1 e) else 0 := by
  show x (ix1 n) + ∑ j ∈ Finset.univ.filter (fun j => d.resultIdx? j idx = some (ix1 n)), upd j = _
  congr 1
  rw [Finset.sum_filter, sum_idx1]
  refine Finset.sum_congr rfl fun e _ => ?_
  simp only [entries_resultIdx_iff d huw hiw hsd hiv]

end Entries

/-! ## Rows of `[N, C]` taken at `[E, 1]` indices -/

section Take
variable {α : Type} {N E C w : Nat} (d : GatherDims ⟨2, ![N, C]⟩ ⟨2, ![E, 1]⟩ ⟨2, ![E, C]⟩)
  (hod : d.offsetDims = [1]) (hcs : d.collapsedSliceDims = [0]) (hob : d.operandBatchingDims = [])
  (hsb : d.startIndicesBatchingDims = []) (hsm : d.startIndexMap = [0]) (hiv : d.indexVectorDim = 1)
  (hss : d.sliceSizes = ![1, C])

include hod hcs hob hsb hsm hiv hss in
/-- THE ROW GATHER AT `(e, k)`: the operand at row `idx[e]`, read signed and clamped into `[0, N − 1]`, column `k`. -/
theorem rows_gather_apply (hN : 0 < N) (x : (⟨2, ![N, C]⟩ : Shape).Idx → α) (idx : IVec ⟨2, ![E, 1]⟩ w) (e : Fin E) (k : Fin C) :
    Host.gather d x idx (ix2 e k)
      = x (ix2 ⟨min (idx (ix2 e ⟨0, Nat.one_pos⟩)).toInt.toNat (N - 1), by omega⟩ k) := by
  obtain ⟨od, cs, ob, sb, sm, iv, ss, wf⟩ := d
  simp only at hod hcs hob hsb hsm hiv hss
  subst hod hcs hob hsb hsm hiv hss
  set d : GatherDims ⟨2, ![N, C]⟩ ⟨2, ![E, 1]⟩ ⟨2, ![E, C]⟩ := ⟨[1], [0], [], [], [0], 1, ![1, C], wf⟩ with hd
  unfold Host.gather
  congr 1
  funext a
  refine Fin.ext ?_
  match a with
  | ⟨0, _⟩ =>
    show d.start (ix2 e k) idx 0 + d.batchCoord (ix2 e k) 0 + d.offCoord (ix2 e k) 0
      = min (idx (ix2 e ⟨0, Nat.one_pos⟩)).toInt.toNat (N - 1)
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 e k) ⟨List.idxOf (0 : Fin 2) d.startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show d.start (ix2 e k) idx 1 + d.batchCoord (ix2 e k) 1 + d.offCoord (ix2 e k) 1 = k.val
    have hst : d.start (ix2 e k) idx 1 = 0 := by
      unfold GatherDims.start
      rw [dif_neg (show (1 : Fin 2) ∉ d.startIndexMap from one_not_mem_zero)]
    rw [hst, GatherDims.batchCoord_eq_zero _ _ _ List.not_mem_nil]
    unfold GatherDims.offCoord
    rw [dif_pos (show (1 : Fin 2) ∈ d.sKept from (GatherDims.mem_sKept _ _).2 ⟨one_not_mem_zero, List.not_mem_nil⟩)]
    simp only [Nat.zero_add]
    rfl

end Take

end Cert.Lib.SegmentOps

end
-- ==== Proof.KHostApply.lean ====
/-
  The idealized kernel program's two host-side arrays read at coordinates: the accumulating scatter of the gathered
  source rows into a zero array is the segment sum over the edges that land on the node, and the reciprocal-degree column
  is one over the number of such edges clipped below at one.
-/
import proofs.«181870_j23922967838756_2_alg».proof.Proof.KHostDefs
import proofs.«181870_j23922967838756_2_alg».proof.Proof.Gen.KernelIdeal
import proofs.«181870_j23922967838756_2_alg».proof.Proof.LibSegmentOps
import Idealize.ShloMosaic.Lib.IdealHost
import Idealize.ShloMosaic.Lib.Pipeline.Value

noncomputable section

open scoped BigOperators

namespace Cert.KernelIdeal.Val

open Cert.KernelIdeal Idealize.ShloMosaic Idealize.ShloMosaic.ValueIdx

variable [Cert.KernelIdeal.Facts]

/-- Which edges land on which node: the edge list's row 0. -/
abbrev hit (ei : IVec S2x1600000 32) : Fin 1600000 → Fin 100000 → Prop := Cert.Gcn.hitOf (Cert.Gcn.rowIdx edgeFacts ei)
/-- The node each edge reads: the edge list's row 1. -/
abbrev src (ei : IVec S2x1600000 32) : Fin 1600000 → Fin 100000 := Cert.Gcn.srcOf (by decide) (Cert.Gcn.colIdx edgeFacts ei)

/-! ## Generic forms -/

/-- A scalar constant broadcast to any shape reads the constant's value everywhere. -/
theorem splat_apply {T : Shape} (h : S_.BroadcastsInDim T (![] : Fin 0 → Fin T.rank)) (b : BitVec 32) (i : T.Idx) :
    broadcastInDim T ![] h (constant (F := Ideal) S_ .f32 b) i = Ideal.ofBits .f32 b :=
  broadcastInDim_scalar_apply h _ i

/-- An accumulating row scatter into a zero array is the segment sum of the update's column. -/
theorem rows_seg {N E C : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (z : FVec Ideal ⟨2, ![N, C]⟩ .f32) (hz : ∀ i, z i = 0) (idx : IVec ⟨2, ![E, 1]⟩ 32)
    (upd : FVec Ideal ⟨2, ![E, C]⟩ .f32) (n : Fin N) (c : Fin C) (f : Fin E → EReal) (hu : ∀ e, upd (ix2 e c) = f e) :
    Host.scatterAdd d z idx upd (ix2 n c) = Cert.Gcn.seg (Cert.Gcn.hitOf idx) f n := by
  rw [Cert.Lib.SegmentOps.rows_scatterAdd_apply d huw hiw hsd hiv, hz, zero_add]
  unfold Cert.Gcn.seg Cert.Gcn.hitOf
  exact Finset.sum_congr rfl fun e _ => by rw [hu e]

/-- An accumulating entry scatter into a zero vector is the segment sum of the update. -/
theorem entries_seg {N E : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (z : FVec Ideal ⟨1, ![N]⟩ .f32) (hz : ∀ i, z i = 0) (idx : IVec ⟨2, ![E, 1]⟩ 32)
    (upd : FVec Ideal ⟨1, ![E]⟩ .f32) (n : Fin N) (f : Fin E → EReal) (hu : ∀ e, upd (ix1 e) = f e) :
    Host.scatterAdd d z idx upd (ix1 n) = Cert.Gcn.seg (Cert.Gcn.hitOf idx) f n := by
  rw [Cert.Lib.SegmentOps.entries_scatterAdd_apply d huw hiw hsd hiv, hz, zero_add]
  unfold Cert.Gcn.seg Cert.Gcn.hitOf
  exact Finset.sum_congr rfl fun e _ => by rw [hu e]

/-! ## The two arrays at coordinates -/

/-- The aggregated array at `(n, j)`: the segment sum, over the edges that land on `n`, of column `j` of the source rows. -/
theorem aggArr_apply (x : FVec Ideal S100000x64 .f32) (ei : IVec S2x1600000 32) (n : Fin 100000) (j : Fin 64) :
    aggArr x ei (ix2 n j) = Cert.Gcn.seg (hit ei) (fun e => x (ix2 (src ei e) j)) n := by
  unfold aggArr
  exact rows_seg scatter_S100000x64_S1600000x1_S1600000x64_1_0_0_1 rfl rfl rfl rfl _
    (fun i => (splat_apply _ _ i).trans Ideal.ofBits_zero_f32) (Cert.Gcn.rowIdx edgeFacts ei) _ n j _
    (fun e => Cert.Lib.SegmentOps.rows_gather_apply gather_S100000x64_S1600000x1_S1600000x64_1_0_n_n_0_1_164
      rfl rfl rfl rfl rfl rfl rfl (by decide) x (Cert.Gcn.colIdx edgeFacts ei) e j)

/-- The reciprocal-degree column at `(n, 0)`: one over the node's in-degree clipped below at one. -/
theorem invArr_apply (ei : IVec S2x1600000 32) (n : Fin 100000) : invArr ei (ix2 n (0 : Fin 1)) = Cert.Gcn.inv (hit ei) n := by
  unfold invArr
  rw [broadcastInDim_apply _ Facts₀.bcast_S100000_S100000x1_0 _ (ix2 n (0 : Fin 1)) (ix1 n) (fun a => match a with
    | ⟨0, _⟩ => by show n.val = if (100000 : Nat) = 1 then 0 else n.val; rw [if_neg (by decide)])]
  rw [hostDivf_apply, maximumf_apply, id_eq, splat_apply, Ideal.ofBits_one_f32]
  unfold Cert.Gcn.inv Cert.Gcn.deg
  refine congrArg (fun s => Ideal.div 1 (max 1 s)) ?_
  exact entries_seg scatter_S100000_S1600000x1_S1600000_n_0_0_1 rfl rfl rfl rfl _
    (fun i => (splat_apply _ _ i).trans Ideal.ofBits_zero_f32) (Cert.Gcn.rowIdx edgeFacts ei) _ n _
    (fun e => (splat_apply _ _ (ix1 e)).trans Ideal.ofBits_one_f32)

end Cert.KernelIdeal.Val
end
-- ==== Proof.KRegion0.lean ====
/-
  The first pallas_call (the hidden layer) read as one function of the arrays it is entered with.

  Its grid has 25 points; point `t` fetches rows `4000·t … 4000·t + 3999` of the aggregated neighbour rows, of the
  reciprocal-degree column and of the node features, the whole weight matrix and the bias row, and writes back the same
  rows of the result.  The body's value at row `r`, column `k` of its block is
  `max (∑ⱼ (agg r j · inv r + x r j) · w j k + b k) 0`; the blocks tile the array, so the array ends at that function of
  the whole arrays, row by row.
-/
import proofs.«181870_j23922967838756_2_alg».proof.Proof.Gen.KernelIdeal.Frame
import proofs.«181870_j23922967838756_2_alg».proof.Proof.GcnSpec
import proofs.«181870_j23922967838756_2_alg».proof.Proof.LibPlainMatmul
import proofs.«181870_j23922967838756_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

theorem hz2 : (![0, 0] : Fin 2 → Nat) = fun _ => 0 := funext fun a => by fin_cases a <;> rfl

/-- The body's stored value at row `r`, column `k` of the block, from the loaded blocks. -/
theorem pay0_apply (x0 : Vec Ideal S4000x64 .f32) (x1 : Vec Ideal S4000x1 .f32) (x2 : Vec Ideal S4000x64 .f32)
    (x3 : Vec Ideal S64x128 .f32) (x4 : Vec Ideal S1x128 .f32) (r : Fin 4000) (k : Fin 128) :
    k0_pay1 x0 x1 x2 x3 x4 (ix2 r k)
      = max ((∑ j : Fin 64, (x0 (ix2 r j) * x1 (ix2 r (0 : Fin 1)) + x2 (ix2 r j)) * x3 (ix2 j k)) + x4 (ix2 (0 : Fin 1) k)) 0 := by
  unfold k0_pay1
  rw [maximumf_apply, addf_apply, broadcast_apply]
  rw [show (FloatOps.ofBits (F := Ideal) FTy.f32 0#32) = 0 from Ideal.ofBits_zero_f32]
  refine congrArg (fun z => max z (0 : EReal)) (congrArg₂ (· + ·) ?_ ?_)
  · refine (Idealize.ShloMosaic.PlainMatmul.matmul_zero_apply dot_S4000x64_S64x128_S4000x128_1_0_0_1_n_n rfl rfl rfl rfl rfl rfl none _ _ r k).trans ?_
    refine Finset.sum_congr rfl fun j _ => ?_
    rw [truncf_apply, truncf_apply, addf_apply, mulf_apply, shapeCast_self, Cert.Lib.Keepdims.broadcastTo_a1_ab_apply, shapeCast_self]
  · rw [broadcastTo_1b_ab_apply, shapeCast_self]

/-- The hidden layer at node `n`, feature `k`, from whole arrays read at coordinates. -/
def hidAt (A : S100000x64.Idx → EReal) (I : S100000x1.Idx → EReal) (X : S100000x64.Idx → EReal) (W : S64x128.Idx → EReal)
    (B : S1x128.Idx → EReal) (n : Fin 100000) (k : Fin 128) : EReal :=
  max ((∑ j : Fin 64, (A (ix2 n j) * I (ix2 n (0 : Fin 1)) + X (ix2 n j)) * W (ix2 j k)) + B (ix2 (0 : Fin 1) k)) 0

/-- The hidden layer as an array. -/
def hidArr (A : S100000x64.Idx → EReal) (I : S100000x1.Idx → EReal) (X : S100000x64.Idx → EReal) (W : S64x128.Idx → EReal)
    (B : S1x128.Idx → EReal) : S100000x128.Idx → EReal :=
  fun i => hidAt A I X W B ⟨(i 0).val, idx2_lt0 i⟩ ⟨(i 1).val, idx2_lt1 i⟩

theorem hidArr_apply (A : S100000x64.Idx → EReal) (I : S100000x1.Idx → EReal) (X : S100000x64.Idx → EReal) (W : S64x128.Idx → EReal)
    (B : S1x128.Idx → EReal) (n : Fin 100000) (k : Fin 128) : hidArr A I X W B (ix2 n k) = hidAt A I X W B n k := rfl

section
variable (V : (c : Dev nD) → (b : Ref sig .tc) → Buf (Elt Ideal) ((c : Thread nD τ).loc b))

/-- The index maps over the grid: the row-blocked windows move with the point, the resident ones stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem blk0_0 (c : Dev nD) (t : Fin cfg0.N) (r : Fin 4000) (j : Fin 64) (p : Fin 100000) (hp : p.val = t.val * 4000 + r.val) :
    (iblk0 V c 0 t : Vec Ideal S4000x64 .f32) (ix2 r j) = (V c main_v21 : S100000x64.Idx → EReal) (ix2 p j) := by
  have hi := idx0 t
  unfold iblk0
  rw [View.read_apply]
  show V c main_v21 _ = V c main_v21 _
  congr 1
  funext a
  apply Fin.ext
  match a with
  | ⟨0, _⟩ => show win0_0.index t 0 * 4000 + 1 * r.val = p.val; rw [hi.1, hp]; omega
  | ⟨1, _⟩ => show win0_0.index t 1 * 64 + 1 * j.val = j.val; rw [hi.2.1]; omega

theorem blk0_1 (c : Dev nD) (t : Fin cfg0.N) (r : Fin 4000) (p : Fin 100000) (hp : p.val = t.val * 4000 + r.val) :
    (iblk0 V c 1 t : Vec Ideal S4000x1 .f32) (ix2 r (0 : Fin 1)) = (V c main_v11 : S100000x1.Idx → EReal) (ix2 p (0 : Fin 1)) := by
  have hi := idx0 t
  unfold iblk0
  rw [View.read_apply]
  show V c main_v11 _ = V c main_v11 _
  congr 1
  funext a
  apply Fin.ext
  match a with
  | ⟨0, _⟩ => show win0_1.index t 0 * 4000 + 1 * r.val = p.val; rw [hi.2.2.1, hp]; omega
  | ⟨1, _⟩ => show win0_1.index t 1 * 1 + 1 * 0 = 0; rw [hi.2.2.2.1]

theorem blk0_2 (c : Dev nD) (t : Fin cfg0.N) (r : Fin 4000) (j : Fin 64) (p : Fin 100000) (hp : p.val = t.val * 4000 + r.val) :
    (iblk0 V c 2 t : Vec Ideal S4000x64 .f32) (ix2 r j) = (V c main_arg0 : S100000x64.Idx → EReal) (ix2 p j) := by
  have hi := idx0 t
  unfold iblk0
  rw [View.read_apply]
  show V c main_arg0 _ = V c main_arg0 _
  congr 1
  funext a
  apply Fin.ext
  match a with
  | ⟨0, _⟩ => show win0_2.index t 0 * 4000 + 1 * r.val = p.val; rw [hi.2.2.2.2.1, hp]; omega
  | ⟨1, _⟩ => show win0_2.index t 1 * 64 + 1 * j.val = j.val; rw [hi.2.2.2.2.2.1]; omega

theorem blk0_3 (c : Dev nD) (t : Fin cfg0.N) (j : Fin 64) (k : Fin 128) :
    (iblk0 V c 3 t : Vec Ideal S64x128 .f32) (ix2 j k) = (V c main_arg2 : S64x128.Idx → EReal) (ix2 j k) := by
  have hi := idx0 t
  unfold iblk0
  rw [View.read_apply]
  show V c main_arg2 _ = V c main_arg2 _
  congr 1
  funext a
  apply Fin.ext
  match a with
  | ⟨0, _⟩ => show win0_3.index t 0 * 64 + 1 * j.val = j.val; rw [hi.2.2.2.2.2.2.1]; omega
  | ⟨1, _⟩ => show win0_3.index t 1 * 128 + 1 * k.val = k.val; rw [hi.2.2.2.2.2.2.2.1]; omega

theorem blk0_4 (c : Dev nD) (t : Fin cfg0.N) (k : Fin 128) :
    (iblk0 V c 4 t : Vec Ideal S1x128 .f32) (ix2 (0 : Fin 1) k) = (V c main_v22 : S1x128.Idx → EReal) (ix2 (0 : Fin 1) k) := by
  have hi := idx0 t
  unfold iblk0
  rw [View.read_apply]
  show V c main_v22 _ = V c main_v22 _
  congr 1
  funext a
  apply Fin.ext
  match a with
  | ⟨0, _⟩ => show win0_4.index t 0 * 1 + 1 * 0 = 0; rw [hi.2.2.2.2.2.2.2.2.1]
  | ⟨1, _⟩ => show win0_4.index t 1 * 128 + 1 * k.val = k.val; rw [hi.2.2.2.2.2.2.2.2.2.1]; omega

/-- What point `t` writes back is block `t` of the hidden layer of the arrays the region is entered with. -/
theorem flushed0 (c : Dev nD) (t : Fin cfg0.N) :
    (dat0 V c).flushed 5 t = ((cfg0.win 5).blk t).view.read (Elt Ideal)
      (hidArr (V c main_v21) (V c main_v11) (V c main_arg0) (V c main_arg2) (V c main_v22)) := by
  show (cfg0.win 5).cut (grid0.coords t) ((dat0 V c).after 5 t) = _
  rw [after0_5]
  unfold out0_5
  rw [View.canon_unit_zero hz2]
  simp only [View.ld_unit_zero (S := S4000x64) hz2, View.ld_unit_zero (S := S4000x1) hz2, View.ld_unit_zero (S := S64x128) hz2,
    View.ld_unit_zero (S := S1x128) hz2]
  funext y
  obtain ⟨r, k, rfl⟩ : ∃ (r : Fin 4000) (k : Fin 128), y = ix2 r k := ⟨y 0, y 1, eq_ix2 y⟩
  have hi := idx0 t
  have ht : t.val < 25 := t.isLt
  have hp : t.val * 4000 + r.val < 100000 := by have := r.isLt; omega
  have hemb : ((cfg0.win 5).blk t).view.emb (ix2 r k) = ix2 (⟨t.val * 4000 + r.val, hp⟩ : Fin 100000) k := by
    funext a
    apply Fin.ext
    match a with
    | ⟨0, _⟩ => show win0_5.index t 0 * 4000 + 1 * r.val = t.val * 4000 + r.val; rw [hi.2.2.2.2.2.2.2.2.2.2.1]; omega
    | ⟨1, _⟩ => show win0_5.index t 1 * 128 + 1 * k.val = k.val; rw [hi.2.2.2.2.2.2.2.2.2.2.2]; omega
  show k0_pay1 (iblk0 V c 0 t) (iblk0 V c 1 t) (iblk0 V c 2 t) (iblk0 V c 3 t) (iblk0 V c 4 t) (ix2 r k)
    = hidArr (V c main_v21) (V c main_v11) (V c main_arg0) (V c main_arg2) (V c main_v22) (((cfg0.win 5).blk t).view.emb (ix2 r k))
  rw [hemb, hidArr_apply, pay0_apply]
  unfold hidAt
  refine congrArg (fun z => max z (0 : EReal)) (congrArg₂ (· + ·) (Finset.sum_congr rfl fun j _ => ?_) ?_)
  · rw [blk0_0 V c t r j ⟨t.val * 4000 + r.val, hp⟩ rfl, blk0_1 V c t r ⟨t.val * 4000 + r.val, hp⟩ rfl, blk0_2 V c t r j ⟨t.val * 4000 + r.val, hp⟩ rfl, blk0_3 V c t j k]
  · rw [blk0_4 V c t k]

theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v23).slice (win0_5.rect t)).set ↔ _
  rw [View.set_slice_whole, Rect.mem_set_unit]
  exact Iff.rfl

/-- After the region the result array is the hidden layer of the arrays the region was entered with: row `i` lies in the
    block of point `i / 4000`. -/
theorem final0 (c : Dev nD) : (dat0 V c).arrAt 5 cfg0.N
    = hidArr (V c main_v21) (V c main_v11) (V c main_arg0) (V c main_arg2) (V c main_v22) :=
  (dat0 V c).arrAt_eq_of_cover 5 _ (fun t _ => flushed0 V c t) fun i => by
    have h0 : (i 0).val < 100000 := (i 0).isLt
    have h1 : (i 1).val < 128 := (i 1).isLt
    refine ⟨⟨(i 0).val / 4000, by show (i 0).val / 4000 < 25; omega⟩, flush0_5 _, ?_⟩
    rw [mem_blk0]
    intro a
    have hi := idx0 ⟨(i 0).val / 4000, by show (i 0).val / 4000 < 25; omega⟩
    match a with
    | ⟨0, _⟩ =>
      show win0_5.index _ 0 * 4000 ≤ (i 0).val ∧ (i 0).val < win0_5.index _ 0 * 4000 + 4000
      rw [hi.2.2.2.2.2.2.2.2.2.2.1]; show (i 0).val / 4000 * 4000 ≤ (i 0).val ∧ (i 0).val < (i 0).val / 4000 * 4000 + 4000; omega
    | ⟨1, _⟩ =>
      show win0_5.index _ 1 * 128 ≤ (i 1).val ∧ (i 1).val < win0_5.index _ 1 * 128 + 128
      rw [hi.2.2.2.2.2.2.2.2.2.2.2]; omega

end

end Cert.KernelIdeal.Val

end
-- ==== Proof.KRegion1.lean ====
/-
  The second pallas_call (the projection of the hidden layer) read as one function of the arrays it is entered with.

  Its grid has 25 points; point `t` fetches rows `4000·t … 4000·t + 3999` of the hidden layer and the whole projection
  matrix, and writes back the same rows of the result.  The body's value at row `r`, column `q` of its block is
  `∑ₖ h r k · w k q` (the casts to the narrower float type before the product are the identity over the extended reals);
  the blocks tile the array, so the array ends at that function of the whole arrays, row by row.
-/
import proofs.«181870_j23922967838756_2_alg».proof.Proof.KRegion0

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The body's stored value at row `r`, column `q` of the block, from the loaded blocks. -/
theorem pay1_apply (x0 : Vec Ideal S4000x128 .f32) (x1 : Vec Ideal S128x64 .f32) (r : Fin 4000) (q : Fin 64) :
    k1_pay1 x0 x1 (ix2 r q) = ∑ k : Fin 128, x0 (ix2 r k) * x1 (ix2 k q) := by
  unfold k1_pay1
  refine (Idealize.ShloMosaic.PlainMatmul.matmul_zero_apply dot_S4000x128_S128x64_S4000x64_1_0_0_1_n_n rfl rfl rfl rfl rfl rfl none _ _ r q).trans ?_
  refine Finset.sum_congr rfl fun k _ => ?_
  rw [truncf_apply, truncf_apply, shapeCast_self]

/-- The projection at node `n`, output feature `q`, from whole arrays read at coordinates. -/
def projAt (H : S100000x128.Idx → EReal) (W : S128x64.Idx → EReal) (n : Fin 100000) (q : Fin 64) : EReal :=
  ∑ k : Fin 128, H (ix2 n k) * W (ix2 k q)

/-- The projection as an array. -/
def projArr (H : S100000x128.Idx → EReal) (W : S128x64.Idx → EReal) : S100000x64.Idx → EReal :=
  fun i => projAt H W ⟨(i 0).val, idx2_lt0 i⟩ ⟨(i 1).val, idx2_lt1 i⟩

theorem projArr_apply (H : S100000x128.Idx → EReal) (W : S128x64.Idx → EReal) (n : Fin 100000) (q : Fin 64) :
    projArr H W (ix2 n q) = projAt H W n q := rfl

section
variable (V : (c : Dev nD) → (b : Ref sig .tc) → Buf (Elt Ideal) ((c : Thread nD τ).loc b))

/-- The index maps over the grid: the row-blocked windows move with the point, the resident one stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem blk1_0 (c : Dev nD) (t : Fin cfg1.N) (r : Fin 4000) (k : Fin 128) (p : Fin 100000) (hp : p.val = t.val * 4000 + r.val) :
    (iblk1 V c 0 t : Vec Ideal S4000x128 .f32) (ix2 r k) = (V c main_v23 : S100000x128.Idx → EReal) (ix2 p k) := by
  have hi := idx1 t
  unfold iblk1
  rw [View.read_apply]
  show V c main_v23 _ = V c main_v23 _
  congr 1
  funext a
  apply Fin.ext
  match a with
  | ⟨0, _⟩ => show win1_0.index t 0 * 4000 + 1 * r.val = p.val; rw [hi.1, hp]; omega
  | ⟨1, _⟩ => show win1_0.index t 1 * 128 + 1 * k.val = k.val; rw [hi.2.1]; omega

theorem blk1_1 (c : Dev nD) (t : Fin cfg1.N) (k : Fin 128) (q : Fin 64) :
    (iblk1 V c 1 t : Vec Ideal S128x64 .f32) (ix2 k q) = (V c main_arg4 : S128x64.Idx → EReal) (ix2 k q) := by
  have hi := idx1 t
  unfold iblk1
  rw [View.read_apply]
  show V c main_arg4 _ = V c main_arg4 _
  congr 1
  funext a
  apply Fin.ext
  match a with
  | ⟨0, _⟩ => show win1_1.index t 0 * 128 + 1 * k.val = k.val; rw [hi.2.2.1]; omega
  | ⟨1, _⟩ => show win1_1.index t 1 * 64 + 1 * q.val = q.val; rw [hi.2.2.2.1]; omega

/-- What point `t` writes back is block `t` of the projection of the arrays the region is entered with. -/
theorem flushed1 (c : Dev nD) (t : Fin cfg1.N) :
    (dat1 V c).flushed 2 t = ((cfg1.win 2).blk t).view.read (Elt Ideal) (projArr (V c main_v23) (V c main_arg4)) := by
  show (cfg1.win 2).cut (grid1.coords t) ((dat1 V c).after 2 t) = _
  rw [after1_2]
  unfold out1_2
  rw [View.canon_unit_zero hz2]
  simp only [View.ld_unit_zero (S := S4000x128) hz2, View.ld_unit_zero (S := S128x64) hz2]
  funext y
  obtain ⟨r, q, rfl⟩ : ∃ (r : Fin 4000) (q : Fin 64), y = ix2 r q := ⟨y 0, y 1, eq_ix2 y⟩
  have hi := idx1 t
  have ht : t.val < 25 := t.isLt
  have hp : t.val * 4000 + r.val < 100000 := by have := r.isLt; omega
  have hemb : ((cfg1.win 2).blk t).view.emb (ix2 r q) = ix2 (⟨t.val * 4000 + r.val, hp⟩ : Fin 100000) q := by
    funext a
    apply Fin.ext
    match a with
    | ⟨0, _⟩ => show win1_2.index t 0 * 4000 + 1 * r.val = t.val * 4000 + r.val; rw [hi.2.2.2.2.1]; omega
    | ⟨1, _⟩ => show win1_2.index t 1 * 64 + 1 * q.val = q.val; rw [hi.2.2.2.2.2]; omega
  show k1_pay1 (iblk1 V c 0 t) (iblk1 V c 1 t) (ix2 r q)
    = projArr (V c main_v23) (V c main_arg4) (((cfg1.win 2).blk t).view.emb (ix2 r q))
  rw [hemb, projArr_apply, pay1_apply]
  unfold projAt
  refine Finset.sum_congr rfl fun k _ => ?_
  rw [blk1_0 V c t r k ⟨t.val * 4000 + r.val, hp⟩ rfl, blk1_1 V c t k q]

theorem mem_blk1 (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v24).slice (win1_2.rect t)).set ↔ _
  rw [View.set_slice_whole, Rect.mem_set_unit]
  exact Iff.rfl

/-- After the region the result array is the projection of the arrays the region was entered with: row `i` lies in the
    block of point `i / 4000`. -/
theorem final1 (c : Dev nD) : (dat1 V c).arrAt 2 cfg1.N = projArr (V c main_v23) (V c main_arg4) :=
  (dat1 V c).arrAt_eq_of_cover 2 _ (fun t _ => flushed1 V c t) fun i => by
    have h0 : (i 0).val < 100000 := (i 0).isLt
    have h1 : (i 1).val < 64 := (i 1).isLt
    refine ⟨⟨(i 0).val / 4000, by show (i 0).val / 4000 < 25; omega⟩, flush1_2 _, ?_⟩
    rw [mem_blk1]
    intro a
    have hi := idx1 ⟨(i 0).val / 4000, by show (i 0).val / 4000 < 25; omega⟩
    match a with
    | ⟨0, _⟩ =>
      show win1_2.index _ 0 * 4000 ≤ (i 0).val ∧ (i 0).val < win1_2.index _ 0 * 4000 + 4000
      rw [hi.2.2.2.2.1]; show (i 0).val / 4000 * 4000 ≤ (i 0).val ∧ (i 0).val < (i 0).val / 4000 * 4000 + 4000; omega
    | ⟨1, _⟩ =>
      show win1_2.index _ 1 * 64 ≤ (i 1).val ∧ (i 1).val < win1_2.index _ 1 * 64 + 64
      rw [hi.2.2.2.2.2]; omega

end

end Cert.KernelIdeal.Val

end
-- ==== Proof.KRegion2.lean ====
/-
  The third pallas_call (the output layer's combination) read as one function of the arrays it is entered with.

  Its grid has 25 points; point `t` fetches rows `4000·t … 4000·t + 3999` of the aggregated neighbour rows, of the
  reciprocal-degree column and of the projected rows, the whole bias row, and writes back the same rows of the result.
  The body's value at row `r`, column `q` of its block is `agg r q · inv r + p r q + b q`; the blocks tile the array, so
  the array ends at that function of the whole arrays, row by row.
-/
import proofs.«181870_j23922967838756_2_alg».proof.Proof.KRegion0

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The body's stored value at row `r`, column `q` of the block, from the loaded blocks. -/
theorem pay2_apply (x0 : Vec Ideal S4000x64 .f32) (x1 : Vec Ideal S4000x1 .f32) (x2 : Vec Ideal S4000x64 .f32)
    (x3 : Vec Ideal S1x64 .f32) (r : Fin 4000) (q : Fin 64) :
    k2_pay1 x0 x1 x2 x3 (ix2 r q)
      = x0 (ix2 r q) * x1 (ix2 r (0 : Fin 1)) + x2 (ix2 r q) + x3 (ix2 (0 : Fin 1) q) := by
  unfold k2_pay1
  rw [addf_apply, addf_apply, mulf_apply]
  refine congrArg₂ (· + ·) (congrArg₂ (· + ·) (congrArg₂ (· * ·) ?_ ?_) ?_) ?_
  · rw [shapeCast_self]
  · rw [Cert.Lib.Keepdims.broadcastTo_a1_ab_apply, shapeCast_self]
  · rw [shapeCast_self]
  · rw [broadcastTo_1b_ab_apply, shapeCast_self]

/-- The combination at node `n`, feature `q`, from whole arrays read at coordinates. -/
def combAt (A : S100000x64.Idx → EReal) (I : S100000x1.Idx → EReal) (P : S100000x64.Idx → EReal) (B : S1x64.Idx → EReal)
    (n : Fin 100000) (q : Fin 64) : EReal :=
  A (ix2 n q) * I (ix2 n (0 : Fin 1)) + P (ix2 n q) + B (ix2 (0 : Fin 1) q)

/-- The combination as an array. -/
def combArr (A : S100000x64.Idx → EReal) (I : S100000x1.Idx → EReal) (P : S100000x64.Idx → EReal) (B : S1x64.Idx → EReal) :
    S100000x64.Idx → EReal :=
  fun i => combAt A I P B ⟨(i 0).val, idx2_lt0 i⟩ ⟨(i 1).val, idx2_lt1 i⟩

theorem combArr_apply (A : S100000x64.Idx → EReal) (I : S100000x1.Idx → EReal) (P : S100000x64.Idx → EReal) (B : S1x64.Idx → EReal)
    (n : Fin 100000) (q : Fin 64) : combArr A I P B (ix2 n q) = combAt A I P B n q := rfl

section
variable (V : (c : Dev nD) → (b : Ref sig .tc) → Buf (Elt Ideal) ((c : Thread nD τ).loc b))

/-- The index maps over the grid: the row-blocked windows move with the point, the resident one stays. -/
theorem idx2f : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem blk2_0 (c : Dev nD) (t : Fin cfg2.N) (r : Fin 4000) (q : Fin 64) (p : Fin 100000) (hp : p.val = t.val * 4000 + r.val) :
    (iblk2 V c 0 t : Vec Ideal S4000x64 .f32) (ix2 r q) = (V c main_v34 : S100000x64.Idx → EReal) (ix2 p q) := by
  have hi := idx2f t
  unfold iblk2
  rw [View.read_apply]
  show V c main_v34 _ = V c main_v34 _
  congr 1
  funext a
  apply Fin.ext
  match a with
  | ⟨0, _⟩ => show win2_0.index t 0 * 4000 + 1 * r.val = p.val; rw [hi.1, hp]; omega
  | ⟨1, _⟩ => show win2_0.index t 1 * 64 + 1 * q.val = q.val; rw [hi.2.1]; omega

theorem blk2_1 (c : Dev nD) (t : Fin cfg2.N) (r : Fin 4000) (p : Fin 100000) (hp : p.val = t.val * 4000 + r.val) :
    (iblk2 V c 1 t : Vec Ideal S4000x1 .f32) (ix2 r (0 : Fin 1)) = (V c main_v11 : S100000x1.Idx → EReal) (ix2 p (0 : Fin 1)) := by
  have hi := idx2f t
  unfold iblk2
  rw [View.read_apply]
  show V c main_v11 _ = V c main_v11 _
  congr 1
  funext a
  apply Fin.ext
  match a with
  | ⟨0, _⟩ => show win2_1.index t 0 * 4000 + 1 * r.val = p.val; rw [hi.2.2.1, hp]; omega
  | ⟨1, _⟩ => show win2_1.index t 1 * 1 + 1 * 0 = 0; rw [hi.2.2.2.1]

theorem blk2_2 (c : Dev nD) (t : Fin cfg2.N) (r : Fin 4000) (q : Fin 64) (p : Fin 100000) (hp : p.val = t.val * 4000 + r.val) :
    (iblk2 V c 2 t : Vec Ideal S4000x64 .f32) (ix2 r q) = (V c main_v24 : S100000x64.Idx → EReal) (ix2 p q) := by
  have hi := idx2f t
  unfold iblk2
  rw [View.read_apply]
  show V c main_v24 _ = V c main_v24 _
  congr 1
  funext a
  apply Fin.ext
  match a with
  | ⟨0, _⟩ => show win2_2.index t 0 * 4000 + 1 * r.val = p.val; rw [hi.2.2.2.2.1, hp]; omega
  | ⟨1, _⟩ => show win2_2.index t 1 * 64 + 1 * q.val = q.val; rw [hi.2.2.2.2.2.1]; omega

theorem blk2_3 (c : Dev nD) (t : Fin cfg2.N) (q : Fin 64) :
    (iblk2 V c 3 t : Vec Ideal S1x64 .f32) (ix2 (0 : Fin 1) q) = (V c main_v35 : S1x64.Idx → EReal) (ix2 (0 : Fin 1) q) := by
  have hi := idx2f t
  unfold iblk2
  rw [View.read_apply]
  show V c main_v35 _ = V c main_v35 _
  congr 1
  funext a
  apply Fin.ext
  match a with
  | ⟨0, _⟩ => show win2_3.index t 0 * 1 + 1 * 0 = 0; rw [hi.2.2.2.2.2.2.1]
  | ⟨1, _⟩ => show win2_3.index t 1 * 64 + 1 * q.val = q.val; rw [hi.2.2.2.2.2.2.2.1]; omega

/-- What point `t` writes back is block `t` of the combination of the arrays the region is entered with. -/
theorem flushed2 (c : Dev nD) (t : Fin cfg2.N) :
    (dat2 V c).flushed 4 t = ((cfg2.win 4).blk t).view.read (Elt Ideal)
      (combArr (V c main_v34) (V c main_v11) (V c main_v24) (V c main_v35)) := by
  show (cfg2.win 4).cut (grid2.coords t) ((dat2 V c).after 4 t) = _
  rw [after2_4]
  unfold out2_4
  rw [View.canon_unit_zero hz2]
  simp only [View.ld_unit_zero (S := S4000x64) hz2, View.ld_unit_zero (S := S4000x1) hz2, View.ld_unit_zero (S := S1x64) hz2]
  funext y
  obtain ⟨r, q, rfl⟩ : ∃ (r : Fin 4000) (q : Fin 64), y = ix2 r q := ⟨y 0, y 1, eq_ix2 y⟩
  have hi := idx2f t
  have ht : t.val < 25 := t.isLt
  have hp : t.val * 4000 + r.val < 100000 := by have := r.isLt; omega
  have hemb : ((cfg2.win 4).blk t).view.emb (ix2 r q) = ix2 (⟨t.val * 4000 + r.val, hp⟩ : Fin 100000) q := by
    funext a
    apply Fin.ext
    match a with
    | ⟨0, _⟩ => show win2_4.index t 0 * 4000 + 1 * r.val = t.val * 4000 + r.val; rw [hi.2.2.2.2.2.2.2.2.1]; omega
    | ⟨1, _⟩ => show win2_4.index t 1 * 64 + 1 * q.val = q.val; rw [hi.2.2.2.2.2.2.2.2.2]; omega
  show k2_pay1 (iblk2 V c 0 t) (iblk2 V c 1 t) (iblk2 V c 2 t) (iblk2 V c 3 t) (ix2 r q)
    = combArr (V c main_v34) (V c main_v11) (V c main_v24) (V c main_v35) (((cfg2.win 4).blk t).view.emb (ix2 r q))
  rw [hemb, combArr_apply, pay2_apply]
  unfold combAt
  rw [blk2_0 V c t r q ⟨t.val * 4000 + r.val, hp⟩ rfl, blk2_1 V c t r ⟨t.val * 4000 + r.val, hp⟩ rfl,
    blk2_2 V c t r q ⟨t.val * 4000 + r.val, hp⟩ rfl, blk2_3 V c t q]

theorem mem_blk2 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v36).slice (win2_4.rect t)).set ↔ _
  rw [View.set_slice_whole, Rect.mem_set_unit]
  exact Iff.rfl

/-- After the region the result array is the combination of the arrays the region was entered with: row `i` lies in the
    block of point `i / 4000`. -/
theorem final2 (c : Dev nD) : (dat2 V c).arrAt 4 cfg2.N
    = combArr (V c main_v34) (V c main_v11) (V c main_v24) (V c main_v35) :=
  (dat2 V c).arrAt_eq_of_cover 4 _ (fun t _ => flushed2 V c t) fun i => by
    have h0 : (i 0).val < 100000 := (i 0).isLt
    have h1 : (i 1).val < 64 := (i 1).isLt
    refine ⟨⟨(i 0).val / 4000, by show (i 0).val / 4000 < 25; omega⟩, flush2_4 _, ?_⟩
    rw [mem_blk2]
    intro a
    have hi := idx2f ⟨(i 0).val / 4000, by show (i 0).val / 4000 < 25; omega⟩
    match a with
    | ⟨0, _⟩ =>
      show win2_4.index _ 0 * 4000 ≤ (i 0).val ∧ (i 0).val < win2_4.index _ 0 * 4000 + 4000
      rw [hi.2.2.2.2.2.2.2.2.1]; show (i 0).val / 4000 * 4000 ≤ (i 0).val ∧ (i 0).val < (i 0).val / 4000 * 4000 + 4000; omega
    | ⟨1, _⟩ =>
      show win2_4.index _ 1 * 64 ≤ (i 1).val ∧ (i 1).val < win2_4.index _ 1 * 64 + 64
      rw [hi.2.2.2.2.2.2.2.2.2]; omega

end

end Cert.KernelIdeal.Val

end
-- ==== Proof.KValue.lean ====
/-
  The idealized kernel program's result, read at coordinates.  The first region leaves the hidden layer
  `max ((Σ_j (segsum_j · (1/deg) + x_j) · W₁ j k) + b₁ k) 0`, the second its rows through the second weight matrix, the third
  `segsum (projected rows) · (1/deg) + projected row + b₂`: the specification's `outK` over the six argument arrays.
-/
import proofs.«181870_j23922967838756_2_alg».proof.Proof.KHost
import proofs.«181870_j23922967838756_2_alg».proof.Proof.KHostApply
import proofs.«181870_j23922967838756_2_alg».proof.Proof.KRegion0
import proofs.«181870_j23922967838756_2_alg».proof.Proof.KRegion1
import proofs.«181870_j23922967838756_2_alg».proof.Proof.KRegion2
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-! ## The three regions' functions over the arrays the host operations compute, at coordinates -/

/-- The first region's function of the aggregated rows, the reciprocal degrees, the features, the weights and the bias row is
    the specification's hidden layer with the reciprocal degree as a factor. -/
theorem hidAt_spec (x : FVec Ideal S100000x64 .f32) (ei : IVec S2x1600000 32) (w1 : FVec Ideal S64x128 .f32) (b1 : FVec Ideal S128 .f32)
    (n : Fin 100000) (k : Fin 128) :
    hidAt (aggArr x ei) (invArr ei) x w1 (shapeCast S1x128 b1 shapeCasts_S128_S1x128) n k
      = Cert.Gcn.hidK (hit ei) (src ei) (Cert.Gcn.mat x) (Cert.Gcn.mat w1) (Cert.Gcn.vec b1) n k := by
  unfold hidAt Cert.Gcn.hidK
  rw [invArr_apply, shapeCast_a_1a_apply]
  refine congrArg (fun s => max (s + Cert.Gcn.vec b1 k) 0) (Finset.sum_congr rfl fun j _ => ?_)
  rw [aggArr_apply]
  rfl

/-- The second region's function, over a hidden array known at coordinates. -/
theorem projAt_spec (H : FVec Ideal S100000x128 .f32) (w2 : FVec Ideal S128x64 .f32) (hk : Fin 100000 → Fin 128 → EReal)
    (hH : ∀ n k, H (ix2 n k) = hk n k) (n : Fin 100000) (q : Fin 64) :
    projAt H w2 n q = ∑ k : Fin 128, hk n k * Cert.Gcn.mat w2 k q := by
  unfold projAt
  exact Finset.sum_congr rfl fun k _ => by rw [hH]; rfl

/-- The third region's function, over a projected array known at coordinates. -/
theorem combAt_spec (P : FVec Ideal S100000x64 .f32) (ei : IVec S2x1600000 32) (b2 : FVec Ideal S64 .f32)
    (pk : Fin 100000 → Fin 64 → EReal) (hP : ∀ n q, P (ix2 n q) = pk n q) (n : Fin 100000) (q : Fin 64) :
    combAt (aggArr P ei) (invArr ei) P (shapeCast S1x64 b2 shapeCasts_S64_S1x64) n q
      = Cert.Gcn.seg (hit ei) (fun e => pk (src ei e) q) n * Cert.Gcn.inv (hit ei) n + pk n q + Cert.Gcn.vec b2 q := by
  unfold combAt
  rw [aggArr_apply, invArr_apply, shapeCast_a_1a_apply, hP n q,
    show (fun e => P (ix2 (src ei e) q)) = fun e => pk (src ei e) q from funext fun e => hP _ _]
  rfl

/-! ## Equal arguments give equal arrays -/

theorem hidArr_congr {A A' : S100000x64.Idx → EReal} {I I' : S100000x1.Idx → EReal} {X X' : S100000x64.Idx → EReal}
    {W W' : S64x128.Idx → EReal} {B B' : S1x128.Idx → EReal} (hA : A = A') (hI : I = I') (hX : X = X') (hW : W = W') (hB : B = B') :
    hidArr A I X W B = hidArr A' I' X' W' B' := by subst hA hI hX hW hB; rfl

theorem projArr_congr {H H' : S100000x128.Idx → EReal} {W W' : S128x64.Idx → EReal} (hH : H = H') (hW : W = W') :
    projArr H W = projArr H' W' := by subst hH hW; rfl

theorem combArr_congr {A A' : S100000x64.Idx → EReal} {I I' : S100000x1.Idx → EReal} {P P' : S100000x64.Idx → EReal}
    {B B' : S1x64.Idx → EReal} (hA : A = A') (hI : I = I') (hP : P = P') (hB : B = B') :
    combArr A I P B = combArr A' I' P' B' := by subst hA hI hP hB; rfl

/-! ## The run's arrays -/

section
variable (m : (ℓ : Loc nD τ sig) → Buf (Elt Ideal) ℓ) (ρ : Dev nD → PrngReg)

/-- After the first region the hidden array is the specification's `hidK` of the arguments. -/
theorem hid_value (c : Dev nD) (n : Fin 100000) (k : Fin 128) :
    ((dat0 (V3 m ρ) c).arrAt 5 cfg0.N : S100000x128.Idx → EReal) (ix2 n k)
      = Cert.Gcn.hidK (hit (m ((c.tc : Thread nD τ).loc main_arg1))) (src (m ((c.tc : Thread nD τ).loc main_arg1)))
          (Cert.Gcn.mat (m ((c.tc : Thread nD τ).loc main_arg0))) (Cert.Gcn.mat (m ((c.tc : Thread nD τ).loc main_arg2)))
          (Cert.Gcn.vec (m ((c.tc : Thread nD τ).loc main_arg3))) n k :=
  (congrFun ((final0 (V3 m ρ) c).trans
    (hidArr_congr (V3_v21 m ρ c) (V3_v11 m ρ c) (V3_arg0 m ρ c) (V3_arg2 m ρ c) (V3_v22 m ρ c))) (ix2 n k)).trans
    (hidAt_spec _ _ _ _ n k)

/-- After the second region the projected array is the specification's `projK` of the arguments. -/
theorem proj_value (c : Dev nD) (n : Fin 100000) (q : Fin 64) :
    ((dat1 (V4 m ρ) c).arrAt 2 cfg1.N : S100000x64.Idx → EReal) (ix2 n q)
      = Cert.Gcn.projK (hit (m ((c.tc : Thread nD τ).loc main_arg1))) (src (m ((c.tc : Thread nD τ).loc main_arg1)))
          (Cert.Gcn.mat (m ((c.tc : Thread nD τ).loc main_arg0))) (Cert.Gcn.mat (m ((c.tc : Thread nD τ).loc main_arg2)))
          (Cert.Gcn.vec (m ((c.tc : Thread nD τ).loc main_arg3))) (Cert.Gcn.mat (m ((c.tc : Thread nD τ).loc main_arg4))) n q :=
  (congrFun ((final1 (V4 m ρ) c).trans (projArr_congr (V4_v23 m ρ c) (V4_arg4 m ρ c))) (ix2 n q)).trans
    (projAt_spec _ _ _ (hid_value m ρ c) n q)

/-- THE KERNEL PROGRAM'S RESULT AT `(n, q)` is the specification's `outK` over the program's six argument arrays. -/
theorem kernel_value (m : (ℓ : Loc nD τ sig) → Buf (Elt Ideal) ℓ) (ρ : Dev nD → PrngReg) (c : Dev nD) (n : Fin 100000) (q : Fin 64) :
    (W7 m ρ c (Proc.devRef .tc main_v36) : S100000x64.Idx → EReal) (ix2 n q)
      = Cert.Gcn.outK (hit (m ((c.tc : Thread nD τ).loc main_arg1))) (src (m ((c.tc : Thread nD τ).loc main_arg1)))
          (Cert.Gcn.mat (m ((c.tc : Thread nD τ).loc main_arg0))) (Cert.Gcn.mat (m ((c.tc : Thread nD τ).loc main_arg2)))
          (Cert.Gcn.vec (m ((c.tc : Thread nD τ).loc main_arg3))) (Cert.Gcn.mat (m ((c.tc : Thread nD τ).loc main_arg4)))
          (Cert.Gcn.vec (m ((c.tc : Thread nD τ).loc main_arg5))) n q :=
  (congrFun ((W7_v36 m ρ c).trans ((final2 (V6 m ρ) c).trans
    (combArr_congr (V6_v34 m ρ c) (V6_v11 m ρ c) (V6_v24 m ρ c) (V6_v35 m ρ c)))) (ix2 n q)).trans
    (combAt_spec _ _ _ _ (proj_value m ρ c) n q)

end

end Cert.KernelIdeal.Val
end
-- ==== Proof.RefValueA.lean ====
/-
  The reference's first layer, read at coordinates.  The edge list's two index columns are the specification's terms; a
  row gather reads the source node's row; an accumulating scatter into the zero array is the segment sum over the edges
  that land on the node; the scatter of the ones vector, clipped below at one, is the degree; the hidden layer is
  `max ((Σ_j (segsum_j / deg + x_j) · W₁ j k) + b₁ k) 0`.
-/
import proofs.«181870_j23922967838756_2_alg».proof.Proof.Gen.ReferenceIdeal.Read
import proofs.«181870_j23922967838756_2_alg».proof.Proof.GcnSpec
import proofs.«181870_j23922967838756_2_alg».proof.Proof.LibSegmentOps
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

def edgeFacts : Cert.Gcn.EdgeFacts := ⟨slices_S2x1600000_S1x1600000_0_0, slices_S2x1600000_S1x1600000_1_0, shapeCasts_S1x1600000_S1600000, bcast_S1600000_S1600000x1_0, bcast_S_S1600000⟩

/-- Which edges land on which node: the edge list's row 0. -/
abbrev hit (ei : IVec S2x1600000 32) : Fin 1600000 → Fin 100000 → Prop := Cert.Gcn.hitOf (Cert.Gcn.rowIdx edgeFacts ei)
/-- The node each edge reads: the edge list's row 1. -/
abbrev src (ei : IVec S2x1600000 32) : Fin 1600000 → Fin 100000 := Cert.Gcn.srcOf (by decide) (Cert.Gcn.colIdx edgeFacts ei)

/-! ## The index columns are the specification's -/

theorem v12_eq (ei : IVec S2x1600000 32) : val_main_v12 (F := Ideal) ei = Cert.Gcn.rowIdx edgeFacts ei := rfl
theorem v16_eq (ei : IVec S2x1600000 32) : val_main_v16 (F := Ideal) ei = Cert.Gcn.rowIdx edgeFacts ei := rfl
theorem v9_eq (ei : IVec S2x1600000 32) : val_main_v9 (F := Ideal) ei = Cert.Gcn.colIdx edgeFacts ei := rfl

/-! ## Generic forms: an accumulating scatter into a zero array is a segment sum -/

theorem rows_seg {N E C : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (z : FVec Ideal ⟨2, ![N, C]⟩ .f32) (hz : ∀ i, z i = 0) (idx : IVec ⟨2, ![E, 1]⟩ 32)
    (upd : FVec Ideal ⟨2, ![E, C]⟩ .f32) (n : Fin N) (c : Fin C) (f : Fin E → EReal) (hu : ∀ e, upd (ix2 e c) = f e) :
    Host.scatterAdd d z idx upd (ix2 n c) = Cert.Gcn.seg (Cert.Gcn.hitOf idx) f n := by
  rw [Cert.Lib.SegmentOps.rows_scatterAdd_apply d huw hiw hsd hiv, hz, zero_add]
  unfold Cert.Gcn.seg Cert.Gcn.hitOf
  exact Finset.sum_congr rfl fun e _ => by rw [hu e]

theorem entries_seg {N E : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (z : FVec Ideal ⟨1, ![N]⟩ .f32) (hz : ∀ i, z i = 0) (idx : IVec ⟨2, ![E, 1]⟩ 32)
    (upd : FVec Ideal ⟨1, ![E]⟩ .f32) (n : Fin N) (f : Fin E → EReal) (hu : ∀ e, upd (ix1 e) = f e) :
    Host.scatterAdd d z idx upd (ix1 n) = Cert.Gcn.seg (Cert.Gcn.hitOf idx) f n := by
  rw [Cert.Lib.SegmentOps.entries_scatterAdd_apply d huw hiw hsd hiv, hz, zero_add]
  unfold Cert.Gcn.seg Cert.Gcn.hitOf
  exact Finset.sum_congr rfl fun e _ => by rw [hu e]

/-! ## The first layer -/

theorem v10_apply (x : FVec Ideal S100000x64 .f32) (ei : IVec S2x1600000 32) (e : Fin 1600000) (j : Fin 64) :
    val_main_v10 (F := Ideal) x ei (ix2 e j) = Cert.Gcn.mat x (src ei e) j := by
  unfold val_main_v10
  rw [v9_eq]
  exact Cert.Lib.SegmentOps.rows_gather_apply gather_S100000x64_S1600000x1_S1600000x64_1_0_n_n_0_1_164
    rfl rfl rfl rfl rfl rfl rfl (by decide) x (Cert.Gcn.colIdx edgeFacts ei) e j

theorem v11_zero (i : S100000x64.Idx) : val_main_v11 (F := Ideal) i = 0 := by
  rw [val_main_v11_apply, val_main_cst_apply]; exact Ideal.ofBits_zero_f32

theorem v13_apply (x : FVec Ideal S100000x64 .f32) (ei : IVec S2x1600000 32) (n : Fin 100000) (j : Fin 64) :
    val_main_v13 (F := Ideal) x ei (ix2 n j) = Cert.Gcn.seg (hit ei) (fun e => Cert.Gcn.mat x (src ei e) j) n := by
  unfold val_main_v13
  rw [v12_eq]
  exact rows_seg scatter_S100000x64_S1600000x1_S1600000x64_1_0_0_1 rfl rfl rfl rfl _ v11_zero
    (Cert.Gcn.rowIdx edgeFacts ei) _ n j _ (fun e => v10_apply x ei e j)

theorem v14_one (i : S1600000.Idx) : val_main_v14 (F := Ideal) i = 1 := by
  rw [val_main_v14_apply, val_main_cst_1_apply]; exact Ideal.ofBits_one_f32

theorem v15_zero (i : S100000.Idx) : val_main_v15 (F := Ideal) i = 0 := by
  rw [val_main_v15_apply, val_main_cst_2_apply]; exact Ideal.ofBits_zero_f32

theorem v17_apply (ei : IVec S2x1600000 32) (n : Fin 100000) :
    val_main_v17 (F := Ideal) ei (ix1 n) = Cert.Gcn.seg (hit ei) (fun _ => 1) n := by
  unfold val_main_v17
  rw [v16_eq]
  exact entries_seg scatter_S100000_S1600000x1_S1600000_n_0_0_1 rfl rfl rfl rfl _ v15_zero
    (Cert.Gcn.rowIdx edgeFacts ei) _ n _ (fun e => v14_one (ix1 e))

theorem v18_apply (ei : IVec S2x1600000 32) (n : Fin 100000) :
    val_main_v18 (F := Ideal) ei (ix1 n) = Cert.Gcn.deg (hit ei) n := by
  rw [val_main_v18_apply, val_main_call0_v1_apply, val_main_call0_v0_apply, val_main_cst_3_apply, v17_apply]
  unfold Cert.Gcn.deg
  rw [Ideal.maximumf_def, Ideal.ofBits_def, Ideal.ofBits_one_f32]

theorem v20_apply (ei : IVec S2x1600000 32) (n : Fin 100000) (j : Fin 64) :
    val_main_v20 (F := Ideal) ei (ix2 n j) = Cert.Gcn.deg (hit ei) n := by
  have e : idx_main_v19 (idx_main_v20 (ix2 n j)) = ix1 n := funext fun a => Fin.ext (by match a with | ⟨0, _⟩ => rfl)
  rw [val_main_v20_apply, val_main_v19_apply, e, v18_apply]

theorem v22_apply (x : FVec Ideal S100000x64 .f32) (ei : IVec S2x1600000 32) (n : Fin 100000) (j : Fin 64) :
    val_main_v22 (F := Ideal) x ei (ix2 n j)
      = Ideal.div (Cert.Gcn.seg (hit ei) (fun e => Cert.Gcn.mat x (src ei e) j) n) (Cert.Gcn.deg (hit ei) n) + Cert.Gcn.mat x n j := by
  rw [val_main_v22_apply, val_main_v21_apply, v13_apply, v20_apply]
  rfl

theorem v25_apply (b : FVec Ideal S128 .f32) (n : Fin 100000) (k : Fin 128) :
    val_main_v25 (F := Ideal) b (ix2 n k) = Cert.Gcn.vec b k := by
  have e : idx_main_v24 (idx_main_v25 (ix2 n k)) = ix1 k := funext fun a => Fin.ext (by match a with | ⟨0, _⟩ => rfl)
  rw [val_main_v25_apply, val_main_v24_apply, e]
  rfl

/-- The hidden layer is the specification's. -/
theorem v27_apply (x : FVec Ideal S100000x64 .f32) (ei : IVec S2x1600000 32) (w : FVec Ideal S64x128 .f32) (b : FVec Ideal S128 .f32)
    (n : Fin 100000) (k : Fin 128) :
    val_main_v27 (F := Ideal) x ei w b (ix2 n k)
      = Cert.Gcn.hidR (hit ei) (src ei) (Cert.Gcn.mat x) (Cert.Gcn.mat w) (Cert.Gcn.vec b) n k := by
  rw [val_main_v27_apply, val_main_v26_apply, val_main_v23_apply, v25_apply, val_main_call1_v0_apply, val_main_call1_cst_apply]
  unfold Cert.Gcn.hidR
  rw [Ideal.maximumf_def, Ideal.addf_def, Ideal.ofBits_def, Ideal.ofBits_zero_f32]
  refine congrArg (fun s => max (s + Cert.Gcn.vec b k) 0) (Finset.sum_congr rfl fun j _ => ?_)
  have el : lidx_main_v23 (ix2 n k) j = ix2 n j := funext fun a => Fin.ext (by match a with | ⟨0, _⟩ => rfl | ⟨1, _⟩ => rfl)
  have er : ridx_main_v23 (ix2 n k) j = ix2 j k := funext fun a => Fin.ext (by match a with | ⟨0, _⟩ => rfl | ⟨1, _⟩ => rfl)
  rw [el, er, v22_apply]
  rfl

end Cert.ReferenceIdeal.RefValue
end
-- ==== Proof.RefValue.lean ====
/-
  The reference's second layer and its result, read at coordinates.  The gather of the hidden layer's rows at the source
  nodes, scattered onto the destination nodes, is the segment sum of the hidden rows; divided by the degree, plus the own
  hidden row, through the second weight matrix, plus the bias: the specification's `outR`.
-/
import proofs.«181870_j23922967838756_2_alg».proof.Proof.RefValueA

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The index columns are the specification's -/

theorem v36_eq (ei : IVec S2x1600000 32) : val_main_v36 (F := Ideal) ei = Cert.Gcn.rowIdx edgeFacts ei := rfl
theorem v40_eq (ei : IVec S2x1600000 32) : val_main_v40 (F := Ideal) ei = Cert.Gcn.rowIdx edgeFacts ei := rfl
theorem v33_eq (ei : IVec S2x1600000 32) : val_main_v33 (F := Ideal) ei = Cert.Gcn.colIdx edgeFacts ei := rfl

/-! ## The second layer -/

section
variable (x : FVec Ideal S100000x64 .f32) (ei : IVec S2x1600000 32) (w1 : FVec Ideal S64x128 .f32) (b1 : FVec Ideal S128 .f32)

/-- The hidden layer of the specification over the program's arguments. -/
abbrev hid : Fin 100000 → Fin 128 → EReal :=
  Cert.Gcn.hidR (hit ei) (src ei) (Cert.Gcn.mat x) (Cert.Gcn.mat w1) (Cert.Gcn.vec b1)

theorem v34_apply (e : Fin 1600000) (k : Fin 128) :
    val_main_v34 (F := Ideal) x ei w1 b1 (ix2 e k) = hid x ei w1 b1 (src ei e) k := by
  unfold val_main_v34
  rw [v33_eq]
  exact (Cert.Lib.SegmentOps.rows_gather_apply gather_S100000x128_S1600000x1_S1600000x128_1_0_n_n_0_1_1128
    rfl rfl rfl rfl rfl rfl rfl (by decide) (val_main_v27 (F := Ideal) x ei w1 b1) (Cert.Gcn.colIdx edgeFacts ei) e k).trans
    (v27_apply x ei w1 b1 (src ei e) k)

theorem v35_zero (i : S100000x128.Idx) : val_main_v35 (F := Ideal) i = 0 := by
  rw [val_main_v35_apply, val_main_cst_6_apply]; exact Ideal.ofBits_zero_f32

theorem v37_apply (n : Fin 100000) (k : Fin 128) :
    val_main_v37 (F := Ideal) x ei w1 b1 (ix2 n k) = Cert.Gcn.seg (hit ei) (fun e => hid x ei w1 b1 (src ei e) k) n := by
  unfold val_main_v37
  rw [v36_eq]
  exact rows_seg scatter_S100000x128_S1600000x1_S1600000x128_1_0_0_1 rfl rfl rfl rfl _ v35_zero
    (Cert.Gcn.rowIdx edgeFacts ei) _ n k _ (fun e => v34_apply x ei w1 b1 e k)

theorem v38_one (i : S1600000.Idx) : val_main_v38 (F := Ideal) i = 1 := by
  rw [val_main_v38_apply, val_main_cst_7_apply]; exact Ideal.ofBits_one_f32

theorem v39_zero (i : S100000.Idx) : val_main_v39 (F := Ideal) i = 0 := by
  rw [val_main_v39_apply, val_main_cst_8_apply]; exact Ideal.ofBits_zero_f32

theorem v41_apply (n : Fin 100000) :
    val_main_v41 (F := Ideal) ei (ix1 n) = Cert.Gcn.seg (hit ei) (fun _ => 1) n := by
  unfold val_main_v41
  rw [v40_eq]
  exact entries_seg scatter_S100000_S1600000x1_S1600000_n_0_0_1 rfl rfl rfl rfl _ v39_zero
    (Cert.Gcn.rowIdx edgeFacts ei) _ n _ (fun e => v38_one (ix1 e))

theorem v42_apply (n : Fin 100000) :
    val_main_v42 (F := Ideal) ei (ix1 n) = Cert.Gcn.deg (hit ei) n := by
  rw [val_main_v42_apply, val_main_call2_v1_apply, val_main_call2_v0_apply, val_main_cst_9_apply, v41_apply]
  unfold Cert.Gcn.deg
  rw [Ideal.maximumf_def, Ideal.ofBits_def, Ideal.ofBits_one_f32]

theorem v44_apply (n : Fin 100000) (k : Fin 128) :
    val_main_v44 (F := Ideal) ei (ix2 n k) = Cert.Gcn.deg (hit ei) n := by
  have e : idx_main_v43 (idx_main_v44 (ix2 n k)) = ix1 n := funext fun a => Fin.ext (by match a with | ⟨0, _⟩ => rfl)
  rw [val_main_v44_apply, val_main_v43_apply, e, v42_apply]

theorem v46_apply (n : Fin 100000) (k : Fin 128) :
    val_main_v46 (F := Ideal) x ei w1 b1 (ix2 n k)
      = Ideal.div (Cert.Gcn.seg (hit ei) (fun e => hid x ei w1 b1 (src ei e) k) n) (Cert.Gcn.deg (hit ei) n) + hid x ei w1 b1 n k := by
  rw [val_main_v46_apply, val_main_v45_apply, v37_apply, v44_apply, v27_apply]
  rfl

theorem v49_apply (b2 : FVec Ideal S64 .f32) (n : Fin 100000) (q : Fin 64) :
    val_main_v49 (F := Ideal) b2 (ix2 n q) = Cert.Gcn.vec b2 q := by
  have e : idx_main_v48 (idx_main_v49 (ix2 n q)) = ix1 q := funext fun a => Fin.ext (by match a with | ⟨0, _⟩ => rfl)
  rw [val_main_v49_apply, val_main_v48_apply, e]
  rfl

/-- The result is the specification's second layer. -/
theorem v50_apply (w2 : FVec Ideal S128x64 .f32) (b2 : FVec Ideal S64 .f32) (n : Fin 100000) (q : Fin 64) :
    val_main_v50 (F := Ideal) x ei w1 b1 w2 b2 (ix2 n q)
      = Cert.Gcn.outR (hit ei) (src ei) (Cert.Gcn.mat x) (Cert.Gcn.mat w1) (Cert.Gcn.vec b1) (Cert.Gcn.mat w2) (Cert.Gcn.vec b2) n q := by
  rw [val_main_v50_apply, val_main_v47_apply, v49_apply]
  unfold Cert.Gcn.outR
  rw [Ideal.addf_def]
  refine congrArg (fun s => s + Cert.Gcn.vec b2 q) (Finset.sum_congr rfl fun k _ => ?_)
  have el : lidx_main_v47 (ix2 n q) k = ix2 n k := funext fun a => Fin.ext (by match a with | ⟨0, _⟩ => rfl | ⟨1, _⟩ => rfl)
  have er : ridx_main_v47 (ix2 n q) k = ix2 k q := funext fun a => Fin.ext (by match a with | ⟨0, _⟩ => rfl | ⟨1, _⟩ => rfl)
  rw [el, er, v46_apply]
  rfl

end

/-- THE REFERENCE'S RESULT AT `(n, q)` is the specification's `outR` over the program's six argument arrays. -/
theorem ref_value (m : (ℓ : Loc nD τ sig) → Buf (Elt Ideal) ℓ) (c : Dev nD) (n : Fin 100000) (q : Fin 64) :
    Cert.ReferenceIdeal.Value.res_main_v50 (F := Ideal) m c (ix2 n q)
      = Cert.Gcn.outR (Cert.Gcn.hitOf (Cert.Gcn.rowIdx edgeFacts (m ((c.tc : Thread nD τ).loc main_arg1))))
          (Cert.Gcn.srcOf (by decide) (Cert.Gcn.colIdx edgeFacts (m ((c.tc : Thread nD τ).loc main_arg1))))
          (Cert.Gcn.mat (m ((c.tc : Thread nD τ).loc main_arg0))) (Cert.Gcn.mat (m ((c.tc : Thread nD τ).loc main_arg2)))
          (Cert.Gcn.vec (m ((c.tc : Thread nD τ).loc main_arg3))) (Cert.Gcn.mat (m ((c.tc : Thread nD τ).loc main_arg4)))
          (Cert.Gcn.vec (m ((c.tc : Thread nD τ).loc main_arg5))) n q := by
  rw [Read.val_main_v50_eq]
  exact v50_apply _ _ _ _ _ _ n q

end Cert.ReferenceIdeal.RefValue
end
-- ==== Proof.FiniteInputs.lean ====
/-
  From the precondition "every float input is finite" to "every entry is a real".  The precondition is a conjunction of
  five `jnp.all(|x| < inf)`; a conjunction of one-bit words that is 1 has every conjunct 1; a reduction by `and` that is 1
  had a 1 at every index; and an extended real whose absolute value is below `+∞` is neither infinity.
-/
import proofs.«181870_j23922967838756_2_alg».proof.Pre_finite_inputs
import Idealize.ShloMosaic.Lib.ReduceAll
import Idealize.ShloMosaic.Lib.ValueIdx
import Idealize.ShloMosaic.PureOps.Ideal.Laws

noncomputable section

namespace Cert.Gcn.Finite

open Idealize.ShloMosaic Cert.Pre_finite_inputs

/-- The rank-0 shape has one index. -/
instance : Subsingleton S_.Idx := ⟨fun a b => funext fun d => d.elim0⟩

/-- The f32 pattern `0x7F800000` is `+∞`. -/
theorem ofBits_inf_f32 : Ideal.ofBits .f32 0x7F800000#32 = ⊤ := by simp [Ideal.ofBits, Ideal.ieee]

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- `jnp.all(|x| < inf)` that came out true: every entry of `x` is a real. -/
theorem reals_of_all {s : Shape} {axes : List (Fin s.rank)} (x : FVec Ideal s .f32) (hb : S_.BroadcastsInDim s (![] : Fin 0 → Fin s.rank))
    (hr : s.ReducesTo axes S_) (hu : 0 < S_.numel) (init : IVec S_ 1)
    (h : Host.reduce IntOp.andi (cmpf .olt (Host.absf x) (broadcastInDim s ![] hb (constant (F := Ideal) S_ .f32 0x7F800000#32))) init hr hu
      ValueIdx.ix0 = 1#1) (i : s.Idx) : ∃ r : ℝ, x i = (r : EReal) :=
  real_of_abs_lt (x i) (Host.reduce_andi_all _ init hr hu ValueIdx.ix0 h i)

variable [Cert.Pre_finite_inputs.Facts]

/-- FROM THE PRECONDITION TO THE REALS: when every float input is finite, every entry of the five float arrays is a real. -/
theorem reals_of_pre (x0 : FVec Ideal S100000x64 .f32) (x1 : IVec S2x1600000 32) (x2 : FVec Ideal S64x128 .f32)
    (x3 : FVec Ideal S128 .f32) (x4 : FVec Ideal S128x64 .f32) (x5 : FVec Ideal S64 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ValueIdx.ix0
  dsimp only [fn, fn_part1] at h0
  obtain ⟨h0123, h5⟩ := IntOp.andi_eq_one.1 h0
  obtain ⟨h012, h4⟩ := IntOp.andi_eq_one.1 h0123
  obtain ⟨h01, h3⟩ := IntOp.andi_eq_one.1 h012
  obtain ⟨h0', h2⟩ := IntOp.andi_eq_one.1 h01
  exact ⟨reals_of_all x0 _ _ _ _ h0', reals_of_all x2 _ _ _ _ h2, reals_of_all x3 _ _ _ _ h3,
    reals_of_all x4 _ _ _ _ h4, reals_of_all x5 _ _ _ _ h5⟩

end Cert.Gcn.Finite
end
-- ==== Proof.GcnAlgebra.lean ====
/-
  On finite inputs the two arrangements of the two-layer graph convolution agree.

  Every stage of either arrangement, on real entries, is the coercion of a real number: a finite sum of coercions is the
  coercion of the sum, the degree is a real at least one (so the division is a real division), and the clip at zero of
  a coercion is the coercion of the clip.  Among reals, multiplying by the reciprocal is dividing, a segment sum of a
  product along a row is the product along the row of the segment sums (two finite sums commute), and dividing a sum
  by the degree divides each term.
-/
import proofs.«181870_j23922967838756_2_alg».proof.Proof.GcnSpec

noncomputable section

open scoped BigOperators

namespace Cert.Gcn

open Idealize.ShloMosaic

/-! ## Coercions of finite sums and of the clip -/

/-- The coercion of a finite real sum is the sum of the coercions. -/
theorem coe_sum {κ : Type} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

section
variable {ι ε α β γ : Type} [Fintype ι] [Fintype ε] [Fintype α] [Fintype β] [Fintype γ]
variable (hit : ε → ι → Prop) [∀ e n, Decidable (hit e n)] (src : ε → ι)

/-! ## The real segment sum and degree -/

/-- The segment sum of a real edge vector. -/
def segR (u : ε → ℝ) (n : ι) : ℝ := ∑ e, if hit e n then u e else 0
/-- The real degree, clipped below at one. -/
def degR (n : ι) : ℝ := max 1 (segR hit (fun _ => 1) n)

theorem seg_coe (u : ε → ℝ) (n : ι) : seg hit (fun e => (u e : EReal)) n = (segR hit u n : EReal) := by
  unfold seg segR
  rw [coe_sum]
  refine Finset.sum_congr rfl fun e _ => ?_
  split_ifs <;> simp

theorem deg_coe (n : ι) : deg hit n = (degR hit n : EReal) := by
  unfold deg degR
  rw [coe_max, EReal.coe_one, ← seg_coe]
  simp only [EReal.coe_one]

theorem degR_pos (n : ι) : 0 < degR hit n := lt_of_lt_of_le one_pos (le_max_left _ _)

theorem degR_ne_zero (n : ι) : degR hit n ≠ 0 := (degR_pos hit n).ne'

theorem inv_coe (n : ι) : inv hit n = ((1 / degR hit n : ℝ) : EReal) := by
  unfold inv
  rw [deg_coe, Ideal.div_coe (degR_ne_zero hit n), one_mul]

/-- Dividing a coercion by the degree is the coercion of the real quotient. -/
theorem div_deg_coe (a : ℝ) (n : ι) : Ideal.div (a : EReal) (deg hit n) = ((a / degR hit n : ℝ) : EReal) := by
  rw [deg_coe, Ideal.div_coe (degR_ne_zero hit n), ← EReal.coe_mul, mul_one_div]

/-- A segment sum of products along a row is the product along the row of the segment sums. -/
theorem segR_sum_mul {κ : Type} [Fintype κ] (u : ε → κ → ℝ) (w : κ → ℝ) (n : ι) :
    segR hit (fun e => ∑ k, u e k * w k) n = ∑ k, segR hit (fun e => u e k) n * w k := by
  unfold segR
  simp only [Finset.sum_mul, ite_mul, zero_mul]
  rw [Finset.sum_comm]
  refine Finset.sum_congr rfl fun e _ => ?_
  split_ifs <;> simp

/-! ## The real hidden layer -/

variable (x : ι → α → ℝ) (w1 : α → β → ℝ) (b1 : β → ℝ) (w2 : β → γ → ℝ) (b2 : γ → ℝ)

/-- The hidden layer on real entries. -/
def hidS (n : ι) (k : β) : ℝ :=
  max ((∑ j, (segR hit (fun e => x (src e) j) n / degR hit n + x n j) * w1 j k) + b1 k) 0

theorem hidK_coe (n : ι) (k : β) :
    hidK hit src (fun n j => (x n j : EReal)) (fun j k => (w1 j k : EReal)) (fun k => (b1 k : EReal)) n k
      = (hidS hit src x w1 b1 n k : EReal) := by
  unfold hidK hidS
  rw [coe_max, EReal.coe_add, coe_sum, EReal.coe_zero]
  congr 2
  refine Finset.sum_congr rfl fun j _ => ?_
  rw [seg_coe, inv_coe, ← EReal.coe_mul, ← EReal.coe_add, ← EReal.coe_mul, mul_one_div]

theorem hidR_coe (n : ι) (k : β) :
    hidR hit src (fun n j => (x n j : EReal)) (fun j k => (w1 j k : EReal)) (fun k => (b1 k : EReal)) n k
      = (hidS hit src x w1 b1 n k : EReal) := by
  unfold hidR hidS
  rw [coe_max, EReal.coe_add, coe_sum, EReal.coe_zero]
  congr 2
  refine Finset.sum_congr rfl fun j _ => ?_
  rw [seg_coe, div_deg_coe, ← EReal.coe_add, ← EReal.coe_mul]

/-! ## The second layer -/

theorem projK_coe (n : ι) (q : γ) :
    projK hit src (fun n j => (x n j : EReal)) (fun j k => (w1 j k : EReal)) (fun k => (b1 k : EReal))
        (fun k q => (w2 k q : EReal)) n q
      = ((∑ k, hidS hit src x w1 b1 n k * w2 k q : ℝ) : EReal) := by
  unfold projK
  rw [coe_sum]
  refine Finset.sum_congr rfl fun k _ => ?_
  rw [hidK_coe, ← EReal.coe_mul]

theorem outK_coe (n : ι) (q : γ) :
    outK hit src (fun n j => (x n j : EReal)) (fun j k => (w1 j k : EReal)) (fun k => (b1 k : EReal))
        (fun k q => (w2 k q : EReal)) (fun q => (b2 q : EReal)) n q
      = ((segR hit (fun e => ∑ k, hidS hit src x w1 b1 (src e) k * w2 k q) n / degR hit n
          + ∑ k, hidS hit src x w1 b1 n k * w2 k q + b2 q : ℝ) : EReal) := by
  unfold outK
  simp only [projK_coe]
  rw [seg_coe, inv_coe, ← EReal.coe_mul, ← EReal.coe_add, ← EReal.coe_add, mul_one_div]

theorem outR_coe (n : ι) (q : γ) :
    outR hit src (fun n j => (x n j : EReal)) (fun j k => (w1 j k : EReal)) (fun k => (b1 k : EReal))
        (fun k q => (w2 k q : EReal)) (fun q => (b2 q : EReal)) n q
      = (((∑ k, (segR hit (fun e => hidS hit src x w1 b1 (src e) k) n / degR hit n
          + hidS hit src x w1 b1 n k) * w2 k q) + b2 q : ℝ) : EReal) := by
  unfold outR
  rw [EReal.coe_add, coe_sum]
  congr 1
  refine Finset.sum_congr rfl fun k _ => ?_
  simp only [hidR_coe]
  rw [seg_coe, div_deg_coe, ← EReal.coe_add, ← EReal.coe_mul]

/-- Among reals: aggregating the projected rows and dividing is projecting the aggregated, divided rows. -/
theorem real_agree (h : ι → β → ℝ) (n : ι) (q : γ) :
    segR hit (fun e => ∑ k, h (src e) k * w2 k q) n / degR hit n + ∑ k, h n k * w2 k q
      = ∑ k, (segR hit (fun e => h (src e) k) n / degR hit n + h n k) * w2 k q := by
  rw [segR_sum_mul hit (fun e k => h (src e) k) (fun k => w2 k q) n, Finset.sum_div, ← Finset.sum_add_distrib]
  refine Finset.sum_congr rfl fun k _ => ?_
  ring

end

section
variable {ι ε α β γ : Type} [Fintype ι] [Fintype ε] [Fintype α] [Fintype β] [Fintype γ]
variable (hit : ε → ι → Prop) [∀ e n, Decidable (hit e n)] (src : ε → ι)
variable (X : ι → α → EReal) (W1 : α → β → EReal) (B1 : β → EReal) (W2 : β → γ → EReal) (B2 : γ → EReal)

theorem outK_eq_outR (hX : ∀ n j, ∃ r : ℝ, X n j = (r : EReal)) (hW1 : ∀ j k, ∃ r : ℝ, W1 j k = (r : EReal))
    (hB1 : ∀ k, ∃ r : ℝ, B1 k = (r : EReal)) (hW2 : ∀ k q, ∃ r : ℝ, W2 k q = (r : EReal))
    (hB2 : ∀ q, ∃ r : ℝ, B2 q = (r : EReal)) (n : ι) (q : γ) :
    outK hit src X W1 B1 W2 B2 n q = outR hit src X W1 B1 W2 B2 n q := by
  choose x hx using hX
  choose w1 hw1 using hW1
  choose b1 hb1 using hB1
  choose w2 hw2 using hW2
  choose b2 hb2 using hB2
  obtain rfl : X = fun n j => (x n j : EReal) := funext fun n => funext fun j => hx n j
  obtain rfl : W1 = fun j k => (w1 j k : EReal) := funext fun j => funext fun k => hw1 j k
  obtain rfl : B1 = fun k => (b1 k : EReal) := funext fun k => hb1 k
  obtain rfl : W2 = fun k q => (w2 k q : EReal) := funext fun k => funext fun q => hw2 k q
  obtain rfl : B2 = fun q => (b2 q : EReal) := funext fun q => hb2 q
  rw [outK_coe, outR_coe, real_agree hit src w2 (hidS hit src x w1 b1) n q]

end

end Cert.Gcn

end
-- ==== Proof.lean ====
/-
  The proof of `Cert.Claim`.  The three frames are the generated ones (the reference's from its generated run).  The
  idealization rewrote no operation, so `preserves` is `True`.  The algebraic claim: the idealized kernel ends at the
  specification's `outK` of the arguments (the weight matrix applied before the aggregation, the reciprocal degree a
  factor), the idealized reference at `outR` (division by the degree, the weight matrix applied after); on arrays whose
  entries are reals — which the precondition gives — the two are one function, a finite sum commuting with another.
-/
import proofs.«181870_j23922967838756_2_alg».proof.Defs
import proofs.«181870_j23922967838756_2_alg».proof.Proof.Gen.Kernel
import proofs.«181870_j23922967838756_2_alg».proof.Proof.Gen.Kernel.Skeleton
import proofs.«181870_j23922967838756_2_alg».proof.Proof.Gen.Kernel.Launch
import proofs.«181870_j23922967838756_2_alg».proof.Proof.Gen.Kernel.Points
import proofs.«181870_j23922967838756_2_alg».proof.Proof.Gen.Kernel.Frame
import proofs.«181870_j23922967838756_2_alg».proof.Proof.Gen.KernelIdeal
import proofs.«181870_j23922967838756_2_alg».proof.Proof.Gen.KernelIdeal.Skeleton
import proofs.«181870_j23922967838756_2_alg».proof.Proof.Gen.KernelIdeal.Launch
import proofs.«181870_j23922967838756_2_alg».proof.Proof.Gen.KernelIdeal.Points
import proofs.«181870_j23922967838756_2_alg».proof.Proof.Gen.KernelIdeal.Frame
import proofs.«181870_j23922967838756_2_alg».proof.Proof.Gen.ReferenceIdeal
import proofs.«181870_j23922967838756_2_alg».proof.Proof.Gen.ReferenceIdeal.Run
import proofs.«181870_j23922967838756_2_alg».proof.Proof.Gen.ReferenceIdeal.Read
import proofs.«181870_j23922967838756_2_alg».proof.Proof.Gen.Pre_finite_inputs
import proofs.«181870_j23922967838756_2_alg».proof.Proof.KRun
import proofs.«181870_j23922967838756_2_alg».proof.Proof.KValue
import proofs.«181870_j23922967838756_2_alg».proof.Proof.RefValue
import proofs.«181870_j23922967838756_2_alg».proof.Proof.FiniteInputs
import proofs.«181870_j23922967838756_2_alg».proof.Proof.GcnAlgebra
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the reference's result array is the kernel's: `outR` and `outK` of one
    edge list and of arrays of reals. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v50 (F := Ideal) m' c
      = Cert.KernelIdeal.Gen.W7 m ρ c (Proc.devRef .tc Cert.KernelIdeal.main_v36) := by
  funext i
  obtain ⟨n, q, rfl⟩ : ∃ (n : Fin 100000) (q : Fin 64), i = ix2 n q := ⟨i 0, i 1, eq_ix2 i⟩
  obtain ⟨r0, r2, r3, r4, r5⟩ := Cert.Gcn.Finite.reals_of_pre _ _ _ _ _ _ (hpre c)
  refine (Cert.ReferenceIdeal.RefValue.ref_value m' c n q).trans (Eq.trans ?_ (Cert.KernelIdeal.Val.kernel_value m ρ c n q).symm)
  rw [h0, h1, h2, h3, h4, h5]
  refine (Cert.Gcn.outK_eq_outR _ _ _ _ _ _ _ ?_ ?_ ?_ ?_ ?_ n q).symm
  · exact fun n j => r0 (ix2 n j)
  · exact fun j k => r2 (ix2 j k)
  · exact fun k => r3 (ix1 k)
  · exact fun k q => r4 (ix2 k q)
  · exact fun q => r5 (ix1 q)

theorem algebraic : Cert.algebraic_KernelIdeal_ReferenceIdeal := by
  intro m ρ m' ρ' hpre hagree
  refine ⟨fun c => Cert.KernelIdeal.Gen.W7 m ρ c (Proc.devRef .tc Cert.KernelIdeal.main_v36),
    Cert.KernelIdeal.Val.run_main (F := Ideal) m ρ, ?_⟩
  exact (θ_run Cert.ReferenceIdeal.defs _ _).mono (fun _ h c => ⟨(h c).1.trans
      (result_eq m ρ m' hpre c (hagree c).1 (hagree c).2.1 (hagree c).2.2.1 (hagree c).2.2.2.1 (hagree c).2.2.2.2.1 (hagree c).2.2.2.2.2),
      (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
